-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x200x128 : Shape := ⟨3, ![2048, 200, 128]⟩
abbrev S2048 : Shape := ⟨1, ![2048]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x200x128 : S_.BroadcastsInDim S2048x200x128 (![] : Fin 0 → Fin S2048x200x128.rank)
  reducesTo_S2048x200x128_S_d0_1_2 : S2048x200x128.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2048x128 .f32) (main_arg1 : FVec F S2048x200x128 .f32) (main_arg2 : IVec S2048 32) (main_arg3 : FVec F S512x256 .f32) (main_arg4 : FVec F S256 .f32) (main_arg5 : FVec F S256x1 .f32) (main_arg6 : FVec F S1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x200x128 .f32 := Host.absf main_arg1
  let main_cst_0 : FVec F S_ .f32 := constant S_ .f32 0x7F800000#32
  let main_v5 : FVec F S2048x200x128 .f32 := broadcastInDim S2048x200x128 ![] bcast_S_S2048x200x128 main_cst_0
  let main_v6 : IVec S2048x200x128 1 := cmpf .olt main_v4 main_v5
  let main_c_1 : IVec S_ 1 := constantI S_ 1 1#1
  let main_v7 : IVec S_ 1 := (fun x v => Host.reduce IntOp.andi x v reducesTo_S2048x200x128_S_d0_1_2 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S2048x128 : Shape := ⟨2, ![2048, 128]⟩
abbrev S2048x200x128 : Shape := ⟨3, ![2048, 200, 128]⟩
abbrev S2048 : Shape := ⟨1, ![2048]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2048x1 : Shape := ⟨2, ![2048, 1]⟩
abbrev S128x256 : Shape := ⟨2, ![128, 256]⟩
abbrev S1x1x256 : Shape := ⟨3, ![1, 1, 256]⟩
abbrev S1x1x1 : Shape := ⟨3, ![1, 1, 1]⟩
abbrev S32x128 : Shape := ⟨2, ![32, 128]⟩
abbrev S32x200x128 : Shape := ⟨3, ![32, 200, 128]⟩
abbrev S32x1 : Shape := ⟨2, ![32, 1]⟩
abbrev S32x1x128 : Shape := ⟨3, ![32, 1, 128]⟩
abbrev S6400x128 : Shape := ⟨2, ![6400, 128]⟩
abbrev S6400x256 : Shape := ⟨2, ![6400, 256]⟩
abbrev S32x200x256 : Shape := ⟨3, ![32, 200, 256]⟩
abbrev S32x256 : Shape := ⟨2, ![32, 256]⟩
abbrev S32x1x256 : Shape := ⟨3, ![32, 1, 256]⟩
abbrev S32x200 : Shape := ⟨2, ![32, 200]⟩
abbrev S32x200x1 : Shape := ⟨3, ![32, 200, 1]⟩

abbrev nBuf : Space → Nat
  | .hbm => 19
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x200x128, .f32⟩
  | .hbm, ⟨2, _⟩ => ⟨S2048, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S2048x1, .i32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S1x1x256, .f32⟩
  | .hbm, ⟨15, _⟩ => ⟨S256, .f32⟩
  | .hbm, ⟨16, _⟩ => ⟨S1x1x256, .f32⟩
  | .hbm, ⟨17, _⟩ => ⟨S1x1x1, .f32⟩
  | .hbm, ⟨18, _⟩ => ⟨S2048x128, .f32⟩
  | .local _ .vmem, ⟨0, _⟩ => ⟨S32x128, .f32⟩
  | .local _ .vmem, ⟨1, _⟩ => ⟨S32x128, .f32⟩
  | .local _ .vmem, ⟨2, _⟩ => ⟨S32x200x128, .f32⟩
  | .local _ .vmem, ⟨3, _⟩ => ⟨S32x200x128, .f32⟩
  | .local _ .vmem, ⟨4, _⟩ => ⟨S32x1, .i32⟩
  | .local _ .vmem, ⟨5, _⟩ => ⟨S32x1, .i32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S1x1x256, .f32⟩
  | .local _ .vmem, ⟨10, _⟩ => ⟨S1x1x256, .f32⟩
  | .local _ .vmem, ⟨11, _⟩ => ⟨S1x1x1, .f32⟩
  | .local _ .vmem, ⟨12, _⟩ => ⟨S32x128, .f32⟩
  | .local _ .vmem, ⟨13, _⟩ => ⟨S32x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2048_S2048x1 : S2048.ShapeCasts S2048x1
  slices_S512x256_S128x256_0_0 : S512x256.Slices ![0, 0] S128x256
  slices_S512x256_S128x256_128_0 : S512x256.Slices ![128, 0] S128x256
  slices_S512x256_S128x256_256_0 : S512x256.Slices ![256, 0] S128x256
  slices_S512x256_S128x256_384_0 : S512x256.Slices ![384, 0] S128x256
  shapeCasts_S256_S1x1x256 : S256.ShapeCasts S1x1x256
  shapeCasts_S256x1_S256 : S256x1.ShapeCasts S256
  shapeCasts_S1_S1x1x1 : S1.ShapeCasts S1x1x1
  inb_S32x128_S32x128_0_0 : ∀ a, (![0, 0] : Fin 2 → Nat) a + S32x128.size a ≤ S32x128.size a
  h_S32x128 : 0 < S32x128.numel
  inb_S32x200x128_S32x200x128_0_0_0 : ∀ a, (![0, 0, 0] : Fin 3 → Nat) a + S32x200x128.size a ≤ S32x200x128.size a
  h_S32x200x128 : 0 < S32x200x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x128_S32x1x128 : S32x128.ShapeCasts S32x1x128
  shapeCasts_S32x1x128_S32x1x128 : S32x1x128.ShapeCasts S32x1x128
  broadcasts_S32x1x128_S32x200x128 : S32x1x128.Broadcasts S32x200x128
  shapeCasts_S32x200x128_S6400x128 : S32x200x128.ShapeCasts S6400x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S6400x256_S32x200x256 : S6400x256.ShapeCasts S32x200x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S32x256_S32x1x256 : S32x256.ShapeCasts S32x1x256
  broadcasts_S32x1x256_S32x200x256 : S32x1x256.Broadcasts S32x200x256
  broadcasts_S1x1x256_S32x200x256 : S1x1x256.Broadcasts S32x200x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reduces_S32x200x256_S32x200 : S32x200x256.Reduces [2] S32x200
  shapeCasts_S32x200_S32x200x1 : S32x200.ShapeCasts S32x200x1
  broadcasts_S1x1x1_S32x200x1 : S1x1x1.Broadcasts S32x200x1
  iota_S32x200_d1_w32 : S32x200.Iotas .tc 32 [1]
  broadcasts_S32x1_S32x200 : S32x1.Broadcasts S32x200
  natLt_1_32 : 1 < 32
  broadcasts_S32x200x1_S32x200x128 : S32x200x1.Broadcasts S32x200x128
  reduces_S32x200x128_S32x128 : S32x200x128.Reduces [1] S32x128
  dot_S6400x128_S128x256_S6400x256_1_0_0_1_n_n_wf : DotDims.WF S6400x128 S128x256 S6400x256 [1] [0] [0] [1] [] []
  dot_S32x128_S128x256_S32x256_1_0_0_1_n_n_wf : DotDims.WF S32x128 S128x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S2048x128.size a
  hwx0_0 : ∀ i : grid0.Coords, EltTy.bits .f32 = 32 ∨ (Rect.block (s := S2048x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x128.size a ≤ S2048x200x128.size a
  hwx0_1 : ∀ i : grid0.Coords, EltTy.bits .f32 = 32 ∨ (Rect.block (s := S2048x200x128) S32x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S2048x1.size a
  hwx0_2 : ∀ i : grid0.Coords, EltTy.bits .i32 = 32 ∨ (Rect.block (s := S2048x1) S32x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S1x1x256.size a
  hwx0_6 : ∀ i : grid0.Coords, EltTy.bits .f32 = 32 ∨ (Rect.block (s := S1x1x256) S1x1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S1x1x256.size a
  hwx0_7 : ∀ i : grid0.Coords, EltTy.bits .f32 = 32 ∨ (Rect.block (s := S1x1x256) S1x1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S1x1x1.size a
  hwx0_8 : ∀ i : grid0.Coords, EltTy.bits .f32 = 32 ∨ (Rect.block (s := S1x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S2048x128.size a
  hwx0_9 : ∀ i : grid0.Coords, EltTy.bits .f32 = 32 ∨ (Rect.block (s := S2048x128) S32x128.size (cc0_transform_9 i) (hinb0_9 i)).WholeWords (EltTy.packing .f32)

variable [Facts₀]

def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x200x128 : Shape := ⟨3, ![2048, 200, 128]⟩
abbrev S2048 : Shape := ⟨1, ![2048]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2048x1x128 : Shape := ⟨3, ![2048, 1, 128]⟩
abbrev S2048x200x512 : Shape := ⟨3, ![2048, 200, 512]⟩
abbrev S2048x200x256 : Shape := ⟨3, ![2048, 200, 256]⟩
abbrev S1x1x256 : Shape := ⟨3, ![1, 1, 256]⟩
abbrev S_ : Shape := ⟨0, ![]⟩
abbrev S2048x200x1 : Shape := ⟨3, ![2048, 200, 1]⟩
abbrev S1x1x1 : Shape := ⟨3, ![1, 1, 1]⟩
abbrev S200 : Shape := ⟨1, ![200]⟩
abbrev S1x200 : Shape := ⟨2, ![1, 200]⟩
abbrev S2048x1 : Shape := ⟨2, ![2048, 1]⟩
abbrev S2048x200 : Shape := ⟨2, ![2048, 200]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x200x128, .f32⟩
  | .hbm, ⟨2, _⟩ => ⟨S2048, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S2048x1x128, .f32⟩
  | .hbm, ⟨8, _⟩ => ⟨S2048x200x128, .f32⟩
  | .hbm, ⟨9, _⟩ => ⟨S2048x200x128, .f32⟩
  | .hbm, ⟨10, _⟩ => ⟨S2048x200x128, .f32⟩
  | .hbm, ⟨11, _⟩ => ⟨S2048x200x512, .f32⟩
  | .hbm, ⟨12, _⟩ => ⟨S2048x200x256, .f32⟩
  | .hbm, ⟨13, _⟩ => ⟨S1x1x256, .f32⟩
  | .hbm, ⟨14, _⟩ => ⟨S2048x200x256, .f32⟩
  | .hbm, ⟨15, _⟩ => ⟨S2048x200x256, .f32⟩
  | .hbm, ⟨16, _⟩ => ⟨S_, .f32⟩
  | .hbm, ⟨17, _⟩ => ⟨S2048x200x256, .f32⟩
  | .hbm, ⟨18, _⟩ => ⟨S2048x200x256, .f32⟩
  | .hbm, ⟨19, _⟩ => ⟨S2048x200x1, .f32⟩
  | .hbm, ⟨20, _⟩ => ⟨S1x1x1, .f32⟩
  | .hbm, ⟨21, _⟩ => ⟨S2048x200x1, .f32⟩
  | .hbm, ⟨22, _⟩ => ⟨S2048x200x1, .f32⟩
  | .hbm, ⟨23, _⟩ => ⟨S200, .i32⟩
  | .hbm, ⟨24, _⟩ => ⟨S1x200, .i32⟩
  | .hbm, ⟨25, _⟩ => ⟨S2048x1, .i32⟩
  | .hbm, ⟨26, _⟩ => ⟨S2048x200, .i32⟩
  | .hbm, ⟨27, _⟩ => ⟨S2048x200, .i32⟩
  | .hbm, ⟨28, _⟩ => ⟨S2048x200, .i1⟩
  | .hbm, ⟨29, _⟩ => ⟨S2048x200, .f32⟩
  | .hbm, ⟨30, _⟩ => ⟨S2048x200x128, .f32⟩
  | .hbm, ⟨31, _⟩ => ⟨S2048x200x128, .f32⟩
  | .hbm, ⟨32, _⟩ => ⟨S2048x200x1, .f32⟩
  | .hbm, ⟨33, _⟩ => ⟨S2048x200x128, .f32⟩
  | .hbm, ⟨34, _⟩ => ⟨S2048x200x128, .f32⟩
  | .hbm, ⟨35, _⟩ => ⟨S_, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S2048x1x128_S2048x200x128_0_1_2 : S2048x1x128.BroadcastsInDim S2048x200x128 (![0, 1, 2] : Fin 3 → Fin S2048x200x128.rank)
  concatenates_S2048x200x128_S2048x200x128_S2048x200x128_S2048x200x128_S2048x200x512_d2 : Shape.Concatenates [S2048x200x128, S2048x200x128, S2048x200x128, S2048x200x128] S2048x200x512 2
  bcast_S256_S1x1x256_2 : S256.BroadcastsInDim S1x1x256 (![2] : Fin 1 → Fin S1x1x256.rank)
  bcast_S1x1x256_S2048x200x256_0_1_2 : S1x1x256.BroadcastsInDim S2048x200x256 (![0, 1, 2] : Fin 3 → Fin S2048x200x256.rank)
  bcast_S_S2048x200x256 : S_.BroadcastsInDim S2048x200x256 (![] : Fin 0 → Fin S2048x200x256.rank)
  bcast_S1_S1x1x1_2 : S1.BroadcastsInDim S1x1x1 (![2] : Fin 1 → Fin S1x1x1.rank)
  bcast_S1x1x1_S2048x200x1_0_1_2 : S1x1x1.BroadcastsInDim S2048x200x1 (![0, 1, 2] : Fin 3 → Fin S2048x200x1.rank)
  bcast_S200_S1x200_1 : S200.BroadcastsInDim S1x200 (![1] : Fin 1 → Fin S1x200.rank)
  bcast_S2048_S2048x1_0 : S2048.BroadcastsInDim S2048x1 (![0] : Fin 1 → Fin S2048x1.rank)
  bcast_S1x200_S2048x200_0_1 : S1x200.BroadcastsInDim S2048x200 (![0, 1] : Fin 2 → Fin S2048x200.rank)
  bcast_S2048x1_S2048x200_0_1 : S2048x1.BroadcastsInDim S2048x200 (![0, 1] : Fin 2 → Fin S2048x200.rank)
  bcast_S2048x200x1_S2048x200x128_0_1_2 : S2048x200x1.BroadcastsInDim S2048x200x128 (![0, 1, 2] : Fin 3 → Fin S2048x200x128.rank)
  bcast_S2048x200_S2048x200x1_0_1 : S2048x200.BroadcastsInDim S2048x200x1 (![0, 1] : Fin 2 → Fin S2048x200x1.rank)
  reducesTo_S2048x200x128_S2048x128_d1 : S2048x200x128.ReducesTo [1] S2048x128
  h_S_ : 0 < S_.numel
  dot_S2048x200x512_S512x256_S2048x200x256_2_0_01_1_n_n_wf : DotDims.WF S2048x200x512 S512x256 S2048x200x256 [2] [0] [0, 1] [1] [] []
  dot_S2048x200x256_S256x1_S2048x200x1_2_0_01_1_n_n_wf : DotDims.WF S2048x200x256 S256x1 S2048x200x1 [2] [0] [0, 1] [1] [] []

variable [Facts₀]

def dot_S2048x200x512_S512x256_S2048x200x256_2_0_01_1_n_n : DotDims S2048x200x512 S512x256 S2048x200x256 where
  lhsContracting := [2]
  rhsContracting := [0]
  lhsNonContracting := [0, 1]
  rhsNonContracting := [1]
  lhsBatch := []
  rhsBatch := []
  wf := dot_S2048x200x512_S512x256_S2048x200x256_2_0_01_1_n_n_wf
def dot_S2048x200x256_S256x1_S2048x200x1_2_0_01_1_n_n : DotDims S2048x200x256 S256x1 S2048x200x1 where
  lhsContracting := [2]
  rhsContracting := [0]
  lhsNonContracting := [0, 1]
  rhsNonContracting := [1]
  lhsBatch := []
  rhsBatch := []
  wf := dot_S2048x200x256_S256x1_S2048x200x1_2_0_01_1_n_n_wf

class Facts : Prop extends Facts₀ where

variable [Facts]
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibPlanes.lean ====
/-
  Planes of a stack regarded as rows, for any extents.

  A stack of `B` planes of `H × W` entries (with a leading unit axis) regarded as `B * H` rows of `W` entries,
  and back; `M` rows regarded as `B` groups of `H` rows, and back; and the swap of the last two axes of a
  rank-3 array — each read at an index given by coordinates. Row `b * H + h` is row `h` of plane `b`: the
  indices on the two sides of a cast have the same row-major position.
-/
import Idealize.ShloMosaic.Lib.Pipeline.Value
import Idealize.ShloMosaic.Lib.ValueIdx

noncomputable section

namespace Cert.Planes

open Idealize.ShloMosaic Idealize.ShloMosaic.ValueIdx

/-- Row `h` of plane `b` is row `b * H + h` of the `M = B * H` rows. -/
theorem row_lt {B H M : ℕ} (hM : M = B * H) (b : Fin B) (h : Fin H) : b.val * H + h.val < M := by
  have hb := b.isLt; have hh := h.isLt
  have : (b.val + 1) * H ≤ B * H := Nat.mul_le_mul_right H hb
  rw [hM]; nlinarith

/-- `[1, B, H, W]` regarded as `[M, W]`: row `b * H + h` at column `w` is entry `(0, b, h, w)`. -/
theorem planes_to_rows {α : Type} {B H W M : ℕ} (hM : M = B * H) (x : (⟨4, ![1, B, H, W]⟩ : Shape).Idx → α)
    (hc : (⟨4, ![1, B, H, W]⟩ : Shape).ShapeCasts ⟨2, ![M, W]⟩) (b : Fin B) (h : Fin H) (w : Fin W) :
    shapeCast ⟨2, ![M, W]⟩ x hc (ix2 ⟨b.val * H + h.val, row_lt hM b h⟩ w) = x (ix4 0 b h w) :=
  shapeCast_apply x hc _ _ (by
    rw [Shape.rowMajor_val_two, Shape.rowMajor_val_four]
    show (((0 : ℕ) * B + b.val) * H + h.val) * W + w.val = (b.val * H + h.val) * W + w.val
    rw [Nat.zero_mul, Nat.zero_add])

/-- `[M, W]` regarded as `[1, B, H, W]`: entry `(0, b, h, w)` is row `b * H + h` at column `w`. -/
theorem rows_to_planes {α : Type} {B H W M : ℕ} (hM : M = B * H) (x : (⟨2, ![M, W]⟩ : Shape).Idx → α)
    (hc : (⟨2, ![M, W]⟩ : Shape).ShapeCasts ⟨4, ![1, B, H, W]⟩) (b : Fin B) (h : Fin H) (w : Fin W) :
    shapeCast ⟨4, ![1, B, H, W]⟩ x hc (ix4 0 b h w) = x (ix2 ⟨b.val * H + h.val, row_lt hM b h⟩ w) :=
  shapeCast_apply x hc _ _ (by
    rw [Shape.rowMajor_val_two, Shape.rowMajor_val_four]
    show (b.val * H + h.val) * W + w.val = (((0 : ℕ) * B + b.val) * H + h.val) * W + w.val
    rw [Nat.zero_mul, Nat.zero_add])

/-- `[M, D]` regarded as `[B, H, D]`: entry `(b, h, d)` is row `b * H + h` at column `d`. -/
theorem rows_to_groups {α : Type} {B H D M : ℕ} (hM : M = B * H) (x : (⟨2, ![M, D]⟩ : Shape).Idx → α)
    (hc : (⟨2, ![M, D]⟩ : Shape).ShapeCasts ⟨3, ![B, H, D]⟩) (b : Fin B) (h : Fin H) (d : Fin D) :
    shapeCast ⟨3, ![B, H, D]⟩ x hc (ix3 b h d) = x (ix2 ⟨b.val * H + h.val, row_lt hM b h⟩ d) :=
  shapeCast_apply x hc _ _ (by
    rw [Shape.rowMajor_val_two, Shape.rowMajor_val_three]
    rfl)

/-- `[B, H, D]` regarded as `[M, D]`: row `b * H + h` at column `d` is entry `(b, h, d)`. -/
theorem groups_to_rows {α : Type} {B H D M : ℕ} (hM : M = B * H) (x : (⟨3, ![B, H, D]⟩ : Shape).Idx → α)
    (hc : (⟨3, ![B, H, D]⟩ : Shape).ShapeCasts ⟨2, ![M, D]⟩) (b : Fin B) (h : Fin H) (d : Fin D) :
    shapeCast ⟨2, ![M, D]⟩ x hc (ix2 ⟨b.val * H + h.val, row_lt hM b h⟩ d) = x (ix3 b h d) :=
  shapeCast_apply x hc _ _ (by
    rw [Shape.rowMajor_val_two, Shape.rowMajor_val_three]
    rfl)

/-- The last two axes of a rank-3 array swapped: entry `(b, d, h)` of the result is entry `(b, h, d)`. -/
theorem swap_last_two {α : Type} {B H D : ℕ} (x : (⟨3, ![B, H, D]⟩ : Shape).Idx → α)
    (ht : (⟨3, ![B, H, D]⟩ : Shape).Transposes [0, 2, 1] ⟨3, ![B, D, H]⟩) (b : Fin B) (d : Fin D) (h : Fin H) :
    transpose ⟨3, ![B, D, H]⟩ [0, 2, 1] x ht (ix3 b d h) = x (ix3 b h d) :=
  transpose_apply [0, 2, 1] x ht _ _ (fun a => match a with
    | ⟨0, _⟩ => rfl
    | ⟨1, _⟩ => rfl
    | ⟨2, _⟩ => rfl)

end Cert.Planes

end
-- ==== Proof.LibGroupRows.lean ====
/-
  Rows taken in consecutive groups, for any extents.

  An `[m, d]` array regarded as `[n, g, d]` (row `r * g + j` becomes entry `(r, j)`: `n` consecutive groups of `g`
  rows) read at an index given by coordinates, and the sum over the middle axis of an `[n, g, d]` array read at
  `(r, c)` as the sum of the `g` entries `(r, j, c)`. Together: the sum of each group's rows.
-/
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- An `[m, d]` array cast to `[n, g, d]` reads, at `(r, j, c)`, the operand's row `r * g + j` at column `c`:
    the two indices have the same row-major position `(r * g + j) * d + c`. -/
theorem shapeCast_groups_apply {α : Type} {m n g d : ℕ} (x : (⟨2, ![m, d]⟩ : Shape).Idx → α)
    (h : (⟨2, ![m, d]⟩ : Shape).ShapeCasts ⟨3, ![n, g, d]⟩) (r : Fin n) (j : Fin g) (c : Fin d)
    (hr : r.val * g + j.val < m) :
    shapeCast ⟨3, ![n, g, d]⟩ x h (ix3 r j c) = x (ix2 ⟨r.val * g + j.val, hr⟩ c) :=
  shapeCast_apply x h _ _ (by
    rw [Shape.rowMajor_val_two, Shape.rowMajor_val_three]
    rfl)

/-- A float sum over the middle axis of an `[n, g, d]` array, read at the extended reals at `(r, c)`, is the sum over
    `j` of the entries `(r, j, c)`: the reduced index with `j` inserted at the middle axis is `(r, j, c)`. -/
theorem multiReduction_add_mid_apply {φ : FTy} {n g d : ℕ} (src : FVec Ideal ⟨3, ![n, g, d]⟩ φ) (acc : BitVec φ.bits)
    (h : (⟨3, ![n, g, d]⟩ : Shape).Reduces [1] ⟨2, ![n, d]⟩) (hφ : FKind.Formats φ) (hacc : acc = FKind.add.neutral φ hφ)
    (r : Fin n) (c : Fin d) :
    multiReduction .add [1] ⟨2, ![n, d]⟩ src acc h hφ hacc (ix2 r c) = ∑ j : Fin g, src (ix3 r j c) := by
  refine (Ideal.multiReduction_add_single src acc h hφ hacc (ix2 r c)).trans ?_
  refine Finset.sum_congr rfl fun j _ => congrArg src (funext fun a => Fin.ext ?_)
  match a with
  | ⟨0, _⟩ => rfl
  | ⟨1, _⟩ => rfl
  | ⟨2, _⟩ => rfl

end Cert.Sage

end
-- ==== Proof.LibTrailingUnit.lean ====
/-
  Two layout operations read at an index given by coordinates, for any extents: a TRAILING unit axis added by a
  shape cast, and an array with a trailing unit axis broadcast along that axis. Together they are the "keep the last
  axis as a column and spread it" step, `w[..., None]` followed by a broadcast against a rank-3 array: the result at
  `(i, j, k)` is `w` at `(i, j)`, whatever `k` is (`spread_apply`).
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b]` array cast to `[a, b, 1]` reads, at `(i, j, u)`, the operand at `(i, j)`: both indices have the
    row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the first two
    coordinates are kept (an extent-1 axis there has only the coordinate `0`), the last is the unit axis's `0`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A column kept as a trailing unit axis and spread along a new last axis: the result at `(i, j, k)` is the
    operand at `(i, j)`. -/
theorem spread_apply {a b c : ℕ} (w : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ w h1) h2 (ix3 i j k) = w (ix2 i j) :=
  (broadcastTo_ab1_abc_apply _ h2 i j k).trans (shapeCast_ab_ab1_apply w h1 i j 0)

end Cert.Lib.TrailingUnit
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibRank3.lean ====
/-
  Two steps on rank-3 arrays read at coordinates, for any extents.

  A single row `[1, 1, c]` (a bias, or one weight column laid along the last axis) spread over an `[a, b, c]` array:
  entry `(p, q, l)` of the result is entry `l` of the row. And a float sum over the LAST axis of an `[a, b, c]` array,
  read at the extended reals at `(i, j)`, is the sum over `k` of the entries `(i, j, k)`.
-/
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

/-- A `[1, 1, c]` array broadcast to `[a, b, c]` reads, at `(p, q, l)`, the operand at `(0, 0, l)`: the two unit
    axes have only the coordinate `0`, the last coordinate is kept. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (l : Fin c) :
    broadcastTo ⟨3, ![a, b, c]⟩ v h (ix3 p q l) = v (ix3 (0 : Fin 1) (0 : Fin 1) l) := by
  refine broadcastTo_apply v h (ix3 p q l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

/-- A float sum over the last axis of an `[a, b, c]` array, read at the extended reals at `(i, j)`, is the sum over
    `k` of the entries `(i, j, k)`: the reduced index with `k` inserted at the last axis is `(i, j, k)`. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

end Cert.LibRank3

end
-- ==== Proof.Payload.lean ====
/-
  The kernel body's arithmetic at coordinates, over the extended reals.

  One grid step works on 32 batch rows. The body lays the 32 × 200 item rows of the step out as 6400 rows, multiplies them
  (and their entrywise products with the target rows) by two 128 × 256 weight matrices on the matrix unit, regroups the
  6400 result rows as 32 × 200, adds the target rows' own product and the bias, and rectifies: entry (p, l, h) of that
  array depends on item row (p, l), target row p and column h of the weights only (`preact_apply`). The second half
  contracts the rectified array with the second layer's row along the last axis, adds its bias, multiplies by the
  item entry and by the 0/1 mask "position l is below the row's length", and sums over the 200 positions
  (`output_apply`). Changes of float format are the identity on the extended reals.
-/
import proofs.«100536_j4243427688477_2_alg».proof.Proof.Gen.KernelIdeal.Skeleton
import proofs.«100536_j4243427688477_2_alg».proof.Proof.LibPlainDot
import proofs.«100536_j4243427688477_2_alg».proof.Proof.LibPlanes
import proofs.«100536_j4243427688477_2_alg».proof.Proof.LibGroupRows
import proofs.«100536_j4243427688477_2_alg».proof.Proof.LibTrailingUnit
import proofs.«100536_j4243427688477_2_alg».proof.Proof.LibLayout
import proofs.«100536_j4243427688477_2_alg».proof.Proof.LibRank3
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Item row `l` of batch row `p` of the step is row `p · 200 + l` of the 6400 rows. -/
def flatRow (p : Fin 32) (l : Fin 200) : Fin 6400 := ⟨p.val * 200 + l.val, Cert.Planes.row_lt (by norm_num) p l⟩

section Layout

variable {α : Type}

/-- The 32 × 200 × 128 block laid out as 6400 rows: row `p · 200 + l` is row `(p, l)`. -/
theorem flatten_apply (x : S32x200x128.Idx → α) (hc : S32x200x128.ShapeCasts S6400x128) (p : Fin 32) (l : Fin 200) (d : Fin 128) :
    shapeCast S6400x128 x hc (ix2 (flatRow p l) d) = x (ix3 p l d) :=
  Cert.Planes.groups_to_rows (by norm_num) x hc p l d

/-- The 6400 result rows regrouped as 32 × 200: entry `(p, l, h)` is row `p · 200 + l` at column `h`. -/
theorem regroup_apply (z : S6400x256.Idx → α) (hc : S6400x256.ShapeCasts S32x200x256) (p : Fin 32) (l : Fin 200) (h : Fin 256) :
    shapeCast S32x200x256 z hc (ix3 p l h) = z (ix2 (flatRow p l) h) :=
  Cert.Planes.rows_to_groups (by norm_num) z hc p l h

/-- A target row spread along the 200 positions. -/
theorem target_spread_apply (x : S32x128.Idx → α) (h1 : S32x128.ShapeCasts S32x1x128)
    (h3 : S32x1x128.Broadcasts S32x200x128) (p : Fin 32) (l : Fin 200) (d : Fin 128) :
    broadcastTo S32x200x128 (shapeCast S32x1x128 x h1) h3 (ix3 p l d) = x (ix2 p d) :=
  (Cert.LibLayout.broadcastTo_a1c_abc_apply _ h3 p l d).trans (Cert.LibLayout.shapeCast_ac_a1c_apply x h1 p 0 d)

/-- A 32 × 256 array (one row per batch row) spread along the 200 positions. -/
theorem row_spread_apply (y : S32x256.Idx → α) (h1 : S32x256.ShapeCasts S32x1x256) (h3 : S32x1x256.Broadcasts S32x200x256)
    (p : Fin 32) (l : Fin 200) (h : Fin 256) :
    broadcastTo S32x200x256 (shapeCast S32x1x256 y h1) h3 (ix3 p l h) = y (ix2 p h) :=
  (Cert.LibLayout.broadcastTo_a1c_abc_apply _ h3 p l h).trans (Cert.LibLayout.shapeCast_ac_a1c_apply y h1 p 0 h)

/-- One row of 256 entries (a bias, a weight row) spread over the 32 × 200 positions. -/
theorem bias_spread_apply (x : S1x1x256.Idx → α) (h3 : S1x1x256.Broadcasts S32x200x256)
    (p : Fin 32) (l : Fin 200) (h : Fin 256) :
    broadcastTo S32x200x256 x h3 (ix3 p l h) = x (ix3 (0 : Fin 1) (0 : Fin 1) h) :=
  Cert.LibRank3.broadcastTo_11c_abc_apply x h3 p l h

/-- The one-entry bias spread over the 32 × 200 scores. -/
theorem scalar_spread_apply (x : S1x1x1.Idx → α) (h3 : S1x1x1.Broadcasts S32x200x1)
    (p : Fin 32) (l : Fin 200) (u : Fin 1) :
    broadcastTo S32x200x1 x h3 (ix3 p l u) = x (ix3 (0 : Fin 1) (0 : Fin 1) (0 : Fin 1)) := by
  have hu : u = 0 := Subsingleton.elim _ _
  subst hu
  exact Cert.LibRank3.broadcastTo_11c_abc_apply x h3 p l 0

/-- A 32 × 200 array kept as a trailing unit axis and spread along the 128 item entries. -/
theorem column_spread_apply (w : S32x200.Idx → α) (h1 : S32x200.ShapeCasts S32x200x1) (h2 : S32x200x1.Broadcasts S32x200x128)
    (p : Fin 32) (l : Fin 200) (q : Fin 128) :
    broadcastTo S32x200x128 (shapeCast S32x200x1 w h1) h2 (ix3 p l q) = w (ix2 p l) :=
  Cert.Lib.TrailingUnit.spread_apply w h1 h2 p l q

/-- A 32 × 200 × 1 array spread along the 128 item entries. -/
theorem unit_spread_apply (v : S32x200x1.Idx → α) (h2 : S32x200x1.Broadcasts S32x200x128) (p : Fin 32) (l : Fin 200) (q : Fin 128) :
    broadcastTo S32x200x128 v h2 (ix3 p l q) = v (ix3 p l (0 : Fin 1)) :=
  Cert.Lib.TrailingUnit.broadcastTo_ab1_abc_apply v h2 p l q

/-- A 32 × 200 array with a trailing unit axis added. -/
theorem unit_axis_apply (w : S32x200.Idx → α) (h1 : S32x200.ShapeCasts S32x200x1) (p : Fin 32) (l : Fin 200) (u : Fin 1) :
    shapeCast S32x200x1 w h1 (ix3 p l u) = w (ix2 p l) :=
  Cert.Lib.TrailingUnit.shapeCast_ab_ab1_apply w h1 p l u

/-- The row lengths (one per batch row) spread along the 200 positions. -/
theorem length_spread_apply (v : S32x1.Idx → α) (h : S32x1.Broadcasts S32x200) (p : Fin 32) (l : Fin 200) :
    broadcastTo S32x200 v h (ix2 p l) = v (ix2 p (0 : Fin 1)) :=
  Cert.LibLayout.broadcastTo_a1_ab_apply v h p l

end Layout

/-- The matrix unit on the 6400 rows, accumulating into zero: entry `(r, h)` is the row's contraction with column `h`. -/
theorem big_product_apply {φ₁ φ₂ : FTy} (A : FVec Ideal S6400x128 φ₁) (B : FVec Ideal S128x256 φ₂) (r : Fin 6400) (h : Fin 256) :
    matmul dot_S6400x128_S128x256_S6400x256_1_0_0_1_n_n none A B (constant S6400x256 .f32 0x00000000#32) (ix2 r h)
      = ∑ k : Fin 128, A (ix2 r k) * B (ix2 k h) :=
  Cert.Sage.matmul_plain_zero_apply (M := 6400) (K := 128) (N := 256) none A B r h

/-- The matrix unit on the 32 target rows. -/
theorem small_product_apply {φ₁ φ₂ : FTy} (A : FVec Ideal S32x128 φ₁) (B : FVec Ideal S128x256 φ₂) (p : Fin 32) (h : Fin 256) :
    matmul dot_S32x128_S128x256_S32x256_1_0_0_1_n_n none A B (constant S32x256 .f32 0x00000000#32) (ix2 p h)
      = ∑ k : Fin 128, A (ix2 p k) * B (ix2 k h) :=
  Cert.Sage.matmul_plain_zero_apply (M := 32) (K := 128) (N := 256) none A B p h

/-- THE RECTIFIED PRE-ACTIVATION of the step at `(p, l, h)`: item row `(p, l)` against the second weight block, its
    entrywise product with target row `p` against the third, target row `p` against the first, the bias, floored at zero. -/
theorem preact_apply (v0 : FVec Ideal S32x128 .f32) (v1 : FVec Ideal S32x200x128 .f32) (v12 v15 v22 : FVec Ideal S128x256 .f32)
    (v27 : FVec Ideal S1x1x256 .f32) (p : Fin 32) (l : Fin 200) (h : Fin 256) :
    k0_pay3 (F := Ideal) v0 v1 v12 v15 v22 v27 (ix3 p l h)
      = max ((((∑ d : Fin 128, v1 (ix3 p l d) * v12 (ix2 d h)) + ∑ d : Fin 128, (v1 (ix3 p l d) * v0 (ix2 p d)) * v15 (ix2 d h))
            + ∑ d : Fin 128, v0 (ix2 p d) * v22 (ix2 d h)) + v27 (ix3 (0 : Fin 1) (0 : Fin 1) h))
          (Ideal.ofBits .f32 0x00000000#32) := by
  unfold k0_pay3
  simp only [maximumf_apply, addf_apply, broadcast_apply, bias_spread_apply, row_spread_apply, regroup_apply,
    big_product_apply, small_product_apply, truncf_apply, flatten_apply, mulf_apply, target_spread_apply, shapeCast_self,
    Ideal.ofBits_def]

/-- A one-bit mask widened to 32 bits and converted as a signed integer is the bit read as a natural number. -/
theorem widened_bit (x : BitVec 1) :
    FloatOps.sitofp (F := Ideal) .f32 (BitVec.setWidth 32 x) = ((x.toNat : ℝ) : EReal) := by
  show (((x.setWidth 32).toInt : ℝ) : EReal) = ((x.toNat : ℝ) : EReal)
  have h : ∀ y : BitVec 1, (y.setWidth 32).toInt = (y.toNat : ℤ) := by decide
  rw [h x]; norm_cast

/-- The score's contraction: the rectified array times the second layer's row, summed along the last axis. -/
theorem score_sum_apply (v35 : FVec Ideal S32x200x256 .f32) (v36 : FVec Ideal S1x1x256 .f32)
    (hb : S1x1x256.Broadcasts S32x200x256) (acc : BitVec 32) (hr : S32x200x256.Reduces [2] S32x200)
    (hφ : FKind.Formats FTy.f32) (hacc : acc = FKind.add.neutral FTy.f32 hφ) (p : Fin 32) (l : Fin 200) :
    multiReduction .add [2] S32x200 (mulf v35 (broadcastTo S32x200x256 v36 hb)) acc hr hφ hacc (ix2 p l)
      = ∑ h : Fin 256, v35 (ix3 p l h) * v36 (ix3 (0 : Fin 1) (0 : Fin 1) h) := by
  refine (Cert.LibRank3.multiReduction_add_last_apply (a := 32) (b := 200) (c := 256) _ acc hr hφ hacc p l).trans ?_
  refine Finset.sum_congr rfl fun h _ => ?_
  rw [mulf_apply, bias_spread_apply]

/-- The mask bit at `(p, l)`: the position index `l` compared, signed, with row `p`'s length. -/
theorem mask_apply (v3 : IVec S32x1 32) (hi : S32x200.Iotas .tc 32 [1]) (hb : S32x1.Broadcasts S32x200) (p : Fin 32) (l : Fin 200) :
    cmpi .slt (iota .tc S32x200 32 [1] hi) (broadcastTo S32x200 v3 hb) (ix2 p l)
      = IntOp.cmpi .slt (BitVec.ofNat 32 l.val) (v3 (ix2 p (0 : Fin 1))) := by
  show IntOp.cmpi .slt (iota .tc S32x200 32 [1] hi (ix2 p l)) (broadcastTo S32x200 v3 hb (ix2 p l)) = _
  rw [iota_single_apply, length_spread_apply]

/-- THE STEP'S OUTPUT at `(p, q)`: over the 200 positions, the score (the rectified array against the second layer's row,
    plus its bias) times the item entry times the mask bit of "position below the row's length". -/
theorem output_apply (v1 : FVec Ideal S32x200x128 .f32) (v3 : IVec S32x1 32) (v35 : FVec Ideal S32x200x256 .f32)
    (v36 : FVec Ideal S1x1x256 .f32) (v38 : FVec Ideal S1x1x1 .f32) (p : Fin 32) (q : Fin 128) :
    k0_pay1 (F := Ideal) v1 v3 v35 v36 v38 (ix2 p q)
      = ∑ l : Fin 200,
          (((∑ h : Fin 256, v35 (ix3 p l h) * v36 (ix3 (0 : Fin 1) (0 : Fin 1) h)) + v38 (ix3 (0 : Fin 1) (0 : Fin 1) (0 : Fin 1)))
              * v1 (ix3 p l q))
            * (((IntOp.cmpi .slt (BitVec.ofNat 32 l.val) (v3 (ix2 p (0 : Fin 1)))).toNat : ℝ) : EReal) := by
  unfold k0_pay1
  refine (Cert.Sage.multiReduction_add_mid_apply (n := 32) (g := 200) (d := 128) _ _ _ _ _ p q).trans ?_
  refine Finset.sum_congr rfl fun l _ => ?_
  simp only [mulf_apply, addf_apply, unit_spread_apply, column_spread_apply, unit_axis_apply, scalar_spread_apply,
    shapeCast_self, sitofp_apply, extui_apply, widened_bit]
  refine congrArg₂ (· * ·) (congrArg (· * v1 (ix3 p l q))
    (congrArg (· + v38 (ix3 (0 : Fin 1) (0 : Fin 1) (0 : Fin 1))) ?_)) ?_
  · exact score_sum_apply v35 v36 _ _ _ _ _ p l
  · exact congrArg (fun b : BitVec 1 => ((b.toNat : ℝ) : EReal)) (mask_apply v3 _ _ p l)

end Cert.KernelIdeal.Body

end
-- ==== Proof.Spec.lean ====
/-
  The attention scorer, coordinate by coordinate, over the extended reals.

  For a batch row `b` and a sequence position `l` the first layer's pre-activation at hidden unit `h` is a
  contraction over 512 features — the target row, the item row, their difference and their product, 128
  entries each — against the weight matrix `W1`, plus the bias. It is written twice: over the 512 features laid end
  to end (`preConcat`), and with the weights of the four 128-row bands combined first (`preFolded`: the item row
  against the sum of the item and difference bands, the product row against the product band, the target row against
  the target band minus the difference band). What follows the pre-activation is the same on both sides
  (`attend`): the rectified pre-activation against the second layer's column plus its bias is the score of position
  `l`; the result at `(b, d)` is the sum over the positions `l` below the row's length of score times item entry.
-/
import Idealize.ShloMosaic.PureOps.Ideal
import Idealize.ShloMosaic.Lib.ValueIdx

noncomputable section

namespace Cert.Scorer

open Idealize.ShloMosaic Idealize.ShloMosaic.ValueIdx

/-- Row `o + d` of the 512-row first-layer weight matrix: `o` = 0, 128, 256, 384 picks the band that multiplies
    the target, the item, their difference, their product. -/
def wrow (o : ℕ) (ho : o + 128 ≤ 512) (d : Fin 128) : Fin 512 := ⟨o + d.val, by have := d.isLt; omega⟩

section

variable (tg : (⟨2, ![2048, 128]⟩ : Shape).Idx → EReal) (it : (⟨3, ![2048, 200, 128]⟩ : Shape).Idx → EReal)
  (sl : (⟨1, ![2048]⟩ : Shape).Idx → BitVec 32) (W1 : (⟨2, ![512, 256]⟩ : Shape).Idx → EReal)
  (b1 : (⟨1, ![256]⟩ : Shape).Idx → EReal) (W2 : (⟨2, ![256, 1]⟩ : Shape).Idx → EReal)
  (b2 : (⟨1, ![1]⟩ : Shape).Idx → EReal)

/-- Feature `f` of position `(b, l)`: the target, the item, item minus target, item times target, 128 entries each. -/
def features (b : Fin 2048) (l : Fin 200) (f : Fin 512) : EReal :=
  if h0 : f.val < 128 then tg (ix2 b ⟨f.val, h0⟩)
  else if h1 : f.val < 256 then it (ix3 b l ⟨f.val - 128, by omega⟩)
  else if h2 : f.val < 384 then it (ix3 b l ⟨f.val - 256, by omega⟩) - tg (ix2 b ⟨f.val - 256, by omega⟩)
  else it (ix3 b l ⟨f.val - 384, by have := f.isLt; omega⟩) * tg (ix2 b ⟨f.val - 384, by have := f.isLt; omega⟩)

/-- The pre-activation as one contraction over the 512 features. -/
def preConcat (b : Fin 2048) (l : Fin 200) (h : Fin 256) : EReal :=
  (∑ f : Fin 512, features tg it b l f * W1 (ix2 f h)) + b1 (ix1 h)

/-- The pre-activation with the weight bands combined first. -/
def preFolded (b : Fin 2048) (l : Fin 200) (h : Fin 256) : EReal :=
  ((∑ d : Fin 128, it (ix3 b l d) * (W1 (ix2 (wrow 128 (by norm_num) d) h) + W1 (ix2 (wrow 256 (by norm_num) d) h))
      + ∑ d : Fin 128, (it (ix3 b l d) * tg (ix2 b d)) * W1 (ix2 (wrow 384 (by norm_num) d) h))
    + ∑ d : Fin 128, tg (ix2 b d) * (W1 (ix2 (wrow 0 (by norm_num) d) h) - W1 (ix2 (wrow 256 (by norm_num) d) h)))
  + b1 (ix1 h)

/-- Position `l` counts for row `b` when `l` is below the row's length, both read as signed 32-bit integers. -/
def maskBit (b : Fin 2048) (l : Fin 200) : BitVec 1 := IntOp.cmpi .slt (BitVec.ofNat 32 l.val) (sl (ix1 b))

/-- From a pre-activation to the result at `(b, d)`: the sum over positions of score times item entry times the mask. -/
def attend (pre : Fin 2048 → Fin 200 → Fin 256 → EReal) (b : Fin 2048) (d : Fin 128) : EReal :=
  ∑ l : Fin 200,
    (((∑ h : Fin 256, max (pre b l h) (Ideal.ofBits .f32 0x00000000#32) * W2 (ix2 h (0 : Fin 1))) + b2 (ix1 (0 : Fin 1)))
        * it (ix3 b l d))
      * (((maskBit sl b l).toNat : ℝ) : EReal)

/-- The result array in the folded spelling. -/
def resultFolded : (⟨2, ![2048, 128]⟩ : Shape).Idx → EReal :=
  fun i => attend it sl W2 b2 (preFolded tg it W1 b1) (i 0) (i 1)

/-- The result array in the concatenated spelling. -/
def resultConcat : (⟨2, ![2048, 128]⟩ : Shape).Idx → EReal :=
  fun i => attend it sl W2 b2 (preConcat tg it W1 b1) (i 0) (i 1)

end

end Cert.Scorer

end
-- ==== Proof.Entry.lean ====
/-
  The arrays the kernel's windows stage, as the region finds them, read at coordinates.

  Before the region the host cuts the 512-row weight matrix into its four bands of 128 rows and combines them — the
  target band minus the difference band, the item band plus the difference band, the product band as it is — and views
  the row lengths as a column, the first bias and the second layer's weights as single rows of 256, the second bias as one
  entry. Each lemma reads one of those arrays at coordinates as entries of the argument arrays.
-/
import proofs.«100536_j4243427688477_2_alg».proof.Proof.Gen.KernelIdeal.Frame
import proofs.«100536_j4243427688477_2_alg».proof.Proof.Spec
import proofs.«100536_j4243427688477_2_alg».proof.Proof.LibLayout
import Idealize.ShloMosaic.Lib.Pipeline.Value
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.ValueIdx Idealize.ShloMosaic.TcCoe
  Idealize.SL.Sem Idealize.ShloMosaic.StableHlo Cert.Scorer

variable (m : (ℓ : Loc nD τ sig) → Buf (Elt Ideal) ℓ) (c : Dev nD)

/-- The weight matrix as launched. -/
abbrev weights : S512x256.Idx → EReal := m ((c : Thread nD τ).loc main_arg3)

/-- A band of 128 rows of the weight matrix starting at row `o`, read at `(d, h)`, is the matrix at `(o + d, h)`. -/
theorem band_apply (x : S512x256.Idx → EReal) (o : ℕ) (ho : o + 128 ≤ 512) (hs : S512x256.Slices ![o, 0] S128x256)
    (d : Fin 128) (h : Fin 256) :
    extractStridedSlice S128x256 ![o, 0] x hs (ix2 d h) = x (ix2 (wrow o ho d) h) :=
  extractStridedSlice_apply ![o, 0] x hs (ix2 d h) (ix2 (wrow o ho d) h) (fun a => by
    match a with
    | ⟨0, _⟩ => rfl
    | ⟨1, _⟩ => exact (Nat.zero_add _).symm)

/-- Window 3's array: the target band minus the difference band. -/
theorem targetWeights_entry (d : Fin 128) (h : Fin 256) :
    (V m c main_v5 : S128x256.Idx → EReal) (ix2 d h)
      = weights m c (ix2 (wrow 0 (by norm_num) d) h) - weights m c (ix2 (wrow 256 (by norm_num) d) h) := by
  have e : @Eq (S128x256.Idx → EReal) (V m c main_v5)
      (subf (F := Ideal) (φ := .f32) (extractStridedSlice S128x256 ![0, 0] (weights m c) slices_S512x256_S128x256_0_0)
          (extractStridedSlice S128x256 ![256, 0] (weights m c) slices_S512x256_S128x256_256_0)) := by
    dsimp only [V, hostOps0]; after_results <;> rfl
  rw [e, subf_apply, band_apply _ 0 (by norm_num), band_apply _ 256 (by norm_num)]

/-- Window 4's array: the item band plus the difference band. -/
theorem itemWeights_entry (d : Fin 128) (h : Fin 256) :
    (V m c main_v6 : S128x256.Idx → EReal) (ix2 d h)
      = weights m c (ix2 (wrow 128 (by norm_num) d) h) + weights m c (ix2 (wrow 256 (by norm_num) d) h) := by
  have e : @Eq (S128x256.Idx → EReal) (V m c main_v6)
      (addf (F := Ideal) (φ := .f32) (extractStridedSlice S128x256 ![128, 0] (weights m c) slices_S512x256_S128x256_128_0)
          (extractStridedSlice S128x256 ![256, 0] (weights m c) slices_S512x256_S128x256_256_0)) := by
    dsimp only [V, hostOps0]; after_results <;> rfl
  rw [e, addf_apply, band_apply _ 128 (by norm_num), band_apply _ 256 (by norm_num)]

/-- Window 5's array: the product band. -/
theorem productWeights_entry (d : Fin 128) (h : Fin 256) :
    (V m c main_v4 : S128x256.Idx → EReal) (ix2 d h) = weights m c (ix2 (wrow 384 (by norm_num) d) h) := by
  have e : (V m c main_v4 : S128x256.Idx → EReal)
      = extractStridedSlice S128x256 ![384, 0] (weights m c) slices_S512x256_S128x256_384_0 := by
    dsimp only [V, hostOps0]; after_results <;> rfl
  rw [e, band_apply _ 384 (by norm_num)]

/-- Window 2's array: the row lengths as a column. -/
theorem lengths_entry (b : Fin 2048) :
    (V m c main_v0 : S2048x1.Idx → BitVec 32) (ix2 b (0 : Fin 1))
      = (m ((c : Thread nD τ).loc main_arg2) : S2048.Idx → BitVec 32) (ix1 b) := by
  have e : (V m c main_v0 : S2048x1.Idx → BitVec 32)
      = shapeCast S2048x1 (m ((c : Thread nD τ).loc main_arg2) : S2048.Idx → BitVec 32) shapeCasts_S2048_S2048x1 := by
    dsimp only [V, hostOps0]; after_results <;> rfl
  rw [e]
  exact Cert.LibLayout.shapeCast_a_a1_apply _ _ b 0

/-- Window 6's array: the first bias as one row of 256. -/
theorem bias1_entry (h : Fin 256) :
    (V m c main_v7 : S1x1x256.Idx → EReal) (ix3 (0 : Fin 1) (0 : Fin 1) h)
      = (m ((c : Thread nD τ).loc main_arg4) : S256.Idx → EReal) (ix1 h) := by
  have e : (V m c main_v7 : S1x1x256.Idx → EReal)
      = shapeCast S1x1x256 (m ((c : Thread nD τ).loc main_arg4) : S256.Idx → EReal) shapeCasts_S256_S1x1x256 := by
    dsimp only [V, hostOps0]; after_results <;> rfl
  rw [e]
  refine shapeCast_apply (s := S256) (t := S1x1x256) _ _ _ (ix1 h) ?_
  rw [Shape.rowMajor_val_three, Shape.rowMajor_val_one]
  show h.val = ((0 : ℕ) * 1 + 0) * 256 + h.val
  omega

/-- Window 7's array: the second layer's weight column as one row of 256. -/
theorem weights2_entry (h : Fin 256) :
    (V m c main_v9 : S1x1x256.Idx → EReal) (ix3 (0 : Fin 1) (0 : Fin 1) h)
      = (m ((c : Thread nD τ).loc main_arg5) : S256x1.Idx → EReal) (ix2 h (0 : Fin 1)) := by
  have e : (V m c main_v9 : S1x1x256.Idx → EReal)
      = shapeCast S1x1x256 (shapeCast S256 (m ((c : Thread nD τ).loc main_arg5) : S256x1.Idx → EReal) shapeCasts_S256x1_S256)
          shapeCasts_S256_S1x1x256 := by
    dsimp only [V, hostOps0]; after_results <;> rfl
  rw [e]
  refine (shapeCast_apply (s := S256) (t := S1x1x256) _ _ _ (ix1 h) ?_).trans
    (shapeCast_apply (s := S256x1) (t := S256) _ _ _ (ix2 h (0 : Fin 1)) ?_)
  · rw [Shape.rowMajor_val_three, Shape.rowMajor_val_one]
    show h.val = ((0 : ℕ) * 1 + 0) * 256 + h.val
    omega
  · rw [Shape.rowMajor_val_one, Shape.rowMajor_val_two]
    show h.val * 1 + 0 = h.val
    omega

/-- Window 8's array: the second bias as a single entry. -/
theorem bias2_entry :
    (V m c main_v10 : S1x1x1.Idx → EReal) (ix3 (0 : Fin 1) (0 : Fin 1) (0 : Fin 1))
      = (m ((c : Thread nD τ).loc main_arg6) : S1.Idx → EReal) (ix1 (0 : Fin 1)) := by
  have e : (V m c main_v10 : S1x1x1.Idx → EReal)
      = shapeCast S1x1x1 (m ((c : Thread nD τ).loc main_arg6) : S1.Idx → EReal) shapeCasts_S1_S1x1x1 := by
    dsimp only [V, hostOps0]; after_results <;> rfl
  rw [e]
  refine shapeCast_apply (s := S1) (t := S1x1x1) _ _ _ (ix1 (0 : Fin 1)) ?_
  rw [Shape.rowMajor_val_three, Shape.rowMajor_val_one]
  rfl

end Cert.KernelIdeal.Entry

end
-- ==== Proof.Blocks.lean ====
/-
  From the grid steps to the whole result array.

  Step `t` of the 64 works on batch rows `32 t … 32 t + 31`: its blocks of the target, the items and the row lengths
  are those rows of the arguments, and every step sees the same combined weight bands, biases and second-layer row. The
  step's stored block, read at `(p, q)`, is the specification's folded result at row `32 t + p` (`block_eq`: the body's
  arithmetic at coordinates, with the blocks' entries named). What step `t` writes back is therefore block `t` of the
  folded result (`flushed_eq`); the 64 blocks cover the 2048 rows (row `r` lies in block `r / 32`); so after the
  run the result array is the folded result of the argument arrays (`final`, `run`).
-/
import proofs.«100536_j4243427688477_2_alg».proof.Proof.Gen.KernelIdeal.Value
import proofs.«100536_j4243427688477_2_alg».proof.Proof.Payload
import proofs.«100536_j4243427688477_2_alg».proof.Proof.Entry
import proofs.«100536_j4243427688477_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Value Cert.KernelIdeal.Body Cert.KernelIdeal.Entry
  Idealize.ShloMosaic Idealize.ShloMosaic.ValueIdx Idealize.ShloMosaic.TcCoe Idealize.SL.Sem Cert.Scorer
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is its one stored value, of the blocks it loaded whole. -/
theorem body_eq (x0 : Vec Ideal S32x128 .f32) (x1 : Vec Ideal S32x200x128 .f32) (x2 : Vec Ideal S32x1 .i32)
    (x3 x4 x5 : Vec Ideal S128x256 .f32) (x6 x7 : Vec Ideal S1x1x256 .f32) (x8 : Vec Ideal S1x1x1 .f32) :
    out0_9 x0 x1 x2 x3 x4 x5 x6 x7 x8 = k0_pay1 x1 x2 (k0_pay3 x0 x1 x4 x5 x3 x6) x7 x8 := by
  unfold out0_9
  rw [View.canon_unit_zero hz2]
  simp only [View.ld_unit_zero (S := S32x128) hz2, View.ld_unit_zero (S := S32x200x128) hz3,
    View.ld_unit_zero (S := S32x1) hz2, View.ld_unit_zero (S := S128x256) hz2, View.ld_unit_zero (S := S1x1x256) hz3,
    View.ld_unit_zero (S := S1x1x1) hz3]
  unfold k0_pay2
  rw [shapeCast_self]

/-- Batch row `p` of the block that starts at row `o`. -/
def blockRow (o : ℕ) (ho : o + 32 ≤ 2048) (p : Fin 32) : Fin 2048 := ⟨o + p.val, by have := p.isLt; omega⟩

/-- ONE BLOCK AGAINST THE SPECIFICATION: when the loaded blocks hold rows `o … o + 31` of the target, the items and the
    lengths, the combined weight bands, the biases and the second layer's row, the stored block at `(p, q)` is the folded
    result at `(o + p, q)`. -/
theorem block_eq (tg : S2048x128.Idx → EReal) (it : S2048x200x128.Idx → EReal) (sl : S2048.Idx → BitVec 32)
    (W1 : S512x256.Idx → EReal) (b1 : S256.Idx → EReal) (W2 : S256x1.Idx → EReal) (b2 : S1.Idx → EReal)
    (x0 : Vec Ideal S32x128 .f32) (x1 : Vec Ideal S32x200x128 .f32) (x2 : Vec Ideal S32x1 .i32)
    (x3 x4 x5 : Vec Ideal S128x256 .f32) (x6 x7 : Vec Ideal S1x1x256 .f32) (x8 : Vec Ideal S1x1x1 .f32)
    (o : ℕ) (ho : o + 32 ≤ 2048)
    (h0 : ∀ (p : Fin 32) (d : Fin 128), x0 (ix2 p d) = tg (ix2 (blockRow o ho p) d))
    (h1 : ∀ (p : Fin 32) (l : Fin 200) (d : Fin 128), x1 (ix3 p l d) = it (ix3 (blockRow o ho p) l d))
    (h2 : ∀ p : Fin 32, x2 (ix2 p (0 : Fin 1)) = sl (ix1 (blockRow o ho p)))
    (h3 : ∀ (d : Fin 128) (h : Fin 256), x3 (ix2 d h) = W1 (ix2 (wrow 0 (by norm_num) d) h) - W1 (ix2 (wrow 256 (by norm_num) d) h))
    (h4 : ∀ (d : Fin 128) (h : Fin 256), x4 (ix2 d h) = W1 (ix2 (wrow 128 (by norm_num) d) h) + W1 (ix2 (wrow 256 (by norm_num) d) h))
    (h5 : ∀ (d : Fin 128) (h : Fin 256), x5 (ix2 d h) = W1 (ix2 (wrow 384 (by norm_num) d) h))
    (h6 : ∀ h : Fin 256, x6 (ix3 (0 : Fin 1) (0 : Fin 1) h) = b1 (ix1 h))
    (h7 : ∀ h : Fin 256, x7 (ix3 (0 : Fin 1) (0 : Fin 1) h) = W2 (ix2 h (0 : Fin 1)))
    (h8 : x8 (ix3 (0 : Fin 1) (0 : Fin 1) (0 : Fin 1)) = b2 (ix1 (0 : Fin 1)))
    (p : Fin 32) (q : Fin 128) :
    out0_9 x0 x1 x2 x3 x4 x5 x6 x7 x8 (ix2 p q) = resultFolded tg it sl W1 b1 W2 b2 (ix2 (blockRow o ho p) q) := by
  rw [body_eq, output_apply]
  show _ = attend it sl W2 b2 (preFolded tg it W1 b1) (blockRow o ho p) q
  unfold attend maskBit
  refine Finset.sum_congr rfl fun l _ => ?_
  have hpre : ∀ h : Fin 256, k0_pay3 (F := Ideal) x0 x1 x4 x5 x3 x6 (ix3 p l h)
      = max (preFolded tg it W1 b1 (blockRow o ho p) l h) (Ideal.ofBits .f32 0x00000000#32) := by
    intro h
    rw [preact_apply]
    unfold preFolded
    simp only [h0, h1, h3, h4, h5, h6]
  simp only [hpre, h7, h8, h1, h2]

variable (m : (ℓ : Loc nD τ sig) → Buf (Elt Ideal) ℓ) (ρ : Dev nD → PrngReg)

/-- The result array the kernel ends with: the folded result of the argument arrays as launched. -/
abbrev G (c : Dev nD) : S2048x128.Idx → EReal :=
  resultFolded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The grid has 64 steps. -/
theorem step_lt (t : Fin cfg0.N) : t.val < 64 := by
  have h := t.isLt
  have hN : cfg0.N = 64 := N_0
  omega

/-- The printed index maps over the grid: the batch-tiled windows are at block `t`, the others at block 0. -/
theorem idx_moving : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0
    ∧ win0_8.index t (0 : Fin 3) = 0 ∧ win0_8.index t (1 : Fin 3) = 0 ∧ win0_8.index t (2 : Fin 3) = 0 :=
  (by decide +kernel : ∀ t : Fin grid0.N, _)

/-- The first row of step `t`'s block. -/
theorem block_le (t : Fin cfg0.N) : 32 * t.val + 32 ≤ 2048 := by have := step_lt t; omega

/-- Step `t`'s target block is rows `32 t …` of the target. -/
theorem target_blk (c : Dev nD) (t : Fin cfg0.N) (p : Fin 32) (d : Fin 128) :
    (iblk m c 0 t : S32x128.Idx → EReal) (ix2 p d)
      = (m ((c : Thread nD τ).loc main_arg0) : S2048x128.Idx → EReal) (ix2 (blockRow (32 * t.val) (block_le t) p) d) := by
  obtain ⟨e0, e1, -⟩ := idx_moving t
  unfold iblk
  rw [View.read_apply]
  show (V m c main_arg0 : S2048x128.Idx → EReal) _ = _
  rw [V_main_arg0]
  refine congrArg _ (funext fun a => Fin.ext ?_)
  match a with
  | ⟨0, _⟩ => show win0_0.index t (0 : Fin 2) * 32 + 1 * p.val = 32 * t.val + p.val; rw [e0]; omega
  | ⟨1, _⟩ => show win0_0.index t (1 : Fin 2) * 128 + 1 * d.val = d.val; rw [e1]; omega

/-- Step `t`'s item block is rows `32 t …` of the items. -/
theorem items_blk (c : Dev nD) (t : Fin cfg0.N) (p : Fin 32) (l : Fin 200) (d : Fin 128) :
    (iblk m c 1 t : S32x200x128.Idx → EReal) (ix3 p l d)
      = (m ((c : Thread nD τ).loc main_arg1) : S2048x200x128.Idx → EReal) (ix3 (blockRow (32 * t.val) (block_le t) p) l d) := by
  obtain ⟨-, -, e0, e1, e2, -⟩ := idx_moving t
  unfold iblk
  rw [View.read_apply]
  show (V m c main_arg1 : S2048x200x128.Idx → EReal) _ = _
  rw [V_main_arg1]
  refine congrArg _ (funext fun a => Fin.ext ?_)
  match a with
  | ⟨0, _⟩ => show win0_1.index t (0 : Fin 3) * 32 + 1 * p.val = 32 * t.val + p.val; rw [e0]; omega
  | ⟨1, _⟩ => show win0_1.index t (1 : Fin 3) * 200 + 1 * l.val = l.val; rw [e1]; omega
  | ⟨2, _⟩ => show win0_1.index t (2 : Fin 3) * 128 + 1 * d.val = d.val; rw [e2]; omega

/-- Step `t`'s block of row lengths is entries `32 t …` of the lengths. -/
theorem lengths_blk (c : Dev nD) (t : Fin cfg0.N) (p : Fin 32) :
    (iblk m c 2 t : S32x1.Idx → BitVec 32) (ix2 p (0 : Fin 1))
      = (m ((c : Thread nD τ).loc main_arg2) : S2048.Idx → BitVec 32) (ix1 (blockRow (32 * t.val) (block_le t) p)) := by
  obtain ⟨-, -, -, -, -, e0, e1, -⟩ := idx_moving t
  unfold iblk
  rw [View.read_apply]
  show (V m c main_v0 : S2048x1.Idx → BitVec 32) _ = _
  rw [← lengths_entry m c]
  refine congrArg _ (funext fun a => Fin.ext ?_)
  match a with
  | ⟨0, _⟩ => show win0_2.index t (0 : Fin 2) * 32 + 1 * p.val = 32 * t.val + p.val; rw [e0]; omega
  | ⟨1, _⟩ => show win0_2.index t (1 : Fin 2) * 1 + 1 * 0 = 0; rw [e1]

/-- Every step's block of a whole-array window is the array: the three weight windows, -/
theorem weights_blk (c : Dev nD) (t : Fin cfg0.N) (d : Fin 128) (h : Fin 256) :
    (iblk m c 3 t : S128x256.Idx → EReal) (ix2 d h) = (V m c main_v5 : S128x256.Idx → EReal) (ix2 d h)
    ∧ (iblk m c 4 t : S128x256.Idx → EReal) (ix2 d h) = (V m c main_v6 : S128x256.Idx → EReal) (ix2 d h)
    ∧ (iblk m c 5 t : S128x256.Idx → EReal) (ix2 d h) = (V m c main_v4 : S128x256.Idx → EReal) (ix2 d h) := by
  obtain ⟨a0, a1, b0, b1, c0, c1, -⟩ := idx_fixed t
  refine ⟨?_, ?_, ?_⟩
  · unfold iblk
    rw [View.read_apply]
    show (V m c main_v5 : S128x256.Idx → EReal) _ = _
    refine congrArg _ (funext fun a => Fin.ext ?_)
    match a with
    | ⟨0, _⟩ => show win0_3.index t (0 : Fin 2) * 128 + 1 * d.val = d.val; rw [a0]; omega
    | ⟨1, _⟩ => show win0_3.index t (1 : Fin 2) * 256 + 1 * h.val = h.val; rw [a1]; omega
  · unfold iblk
    rw [View.read_apply]
    show (V m c main_v6 : S128x256.Idx → EReal) _ = _
    refine congrArg _ (funext fun a => Fin.ext ?_)
    match a with
    | ⟨0, _⟩ => show win0_4.index t (0 : Fin 2) * 128 + 1 * d.val = d.val; rw [b0]; omega
    | ⟨1, _⟩ => show win0_4.index t (1 : Fin 2) * 256 + 1 * h.val = h.val; rw [b1]; omega
  · unfold iblk
    rw [View.read_apply]
    show (V m c main_v4 : S128x256.Idx → EReal) _ = _
    refine congrArg _ (funext fun a => Fin.ext ?_)
    match a with
    | ⟨0, _⟩ => show win0_5.index t (0 : Fin 2) * 128 + 1 * d.val = d.val; rw [c0]; omega
    | ⟨1, _⟩ => show win0_5.index t (1 : Fin 2) * 256 + 1 * h.val = h.val; rw [c1]; omega

/-- and the two single rows of 256 and the single entry. -/
theorem rows_blk (c : Dev nD) (t : Fin cfg0.N) (h : Fin 256) :
    (iblk m c 6 t : S1x1x256.Idx → EReal) (ix3 (0 : Fin 1) (0 : Fin 1) h) = (V m c main_v7 : S1x1x256.Idx → EReal) (ix3 (0 : Fin 1) (0 : Fin 1) h)
    ∧ (iblk m c 7 t : S1x1x256.Idx → EReal) (ix3 (0 : Fin 1) (0 : Fin 1) h) = (V m c main_v9 : S1x1x256.Idx → EReal) (ix3 (0 : Fin 1) (0 : Fin 1) h) := by
  obtain ⟨-, -, -, -, -, -, a0, a1, a2, b0, b1, b2, -⟩ := idx_fixed t
  refine ⟨?_, ?_⟩
  · unfold iblk
    rw [View.read_apply]
    show (V m c main_v7 : S1x1x256.Idx → EReal) _ = _
    refine congrArg _ (funext fun a => Fin.ext ?_)
    match a with
    | ⟨0, _⟩ => show win0_6.index t (0 : Fin 3) * 1 + 1 * 0 = 0; rw [a0]
    | ⟨1, _⟩ => show win0_6.index t (1 : Fin 3) * 1 + 1 * 0 = 0; rw [a1]
    | ⟨2, _⟩ => show win0_6.index t (2 : Fin 3) * 256 + 1 * h.val = h.val; rw [a2]; omega
  · unfold iblk
    rw [View.read_apply]
    show (V m c main_v9 : S1x1x256.Idx → EReal) _ = _
    refine congrArg _ (funext fun a => Fin.ext ?_)
    match a with
    | ⟨0, _⟩ => show win0_7.index t (0 : Fin 3) * 1 + 1 * 0 = 0; rw [b0]
    | ⟨1, _⟩ => show win0_7.index t (1 : Fin 3) * 1 + 1 * 0 = 0; rw [b1]
    | ⟨2, _⟩ => show win0_7.index t (2 : Fin 3) * 256 + 1 * h.val = h.val; rw [b2]; omega

theorem entry_blk (c : Dev nD) (t : Fin cfg0.N) :
    (iblk m c 8 t : S1x1x1.Idx → EReal) (ix3 (0 : Fin 1) (0 : Fin 1) (0 : Fin 1))
      = (V m c main_v10 : S1x1x1.Idx → EReal) (ix3 (0 : Fin 1) (0 : Fin 1) (0 : Fin 1)) := by
  obtain ⟨-, -, -, -, -, -, -, -, -, -, -, -, a0, a1, a2⟩ := idx_fixed t
  unfold iblk
  rw [View.read_apply]
  show (V m c main_v10 : S1x1x1.Idx → EReal) _ = _
  refine congrArg _ (funext fun a => Fin.ext ?_)
  match a with
  | ⟨0, _⟩ => show win0_8.index t (0 : Fin 3) * 1 + 1 * 0 = 0; rw [a0]
  | ⟨1, _⟩ => show win0_8.index t (1 : Fin 3) * 1 + 1 * 0 = 0; rw [a1]
  | ⟨2, _⟩ => show win0_8.index t (2 : Fin 3) * 1 + 1 * 0 = 0; rw [a2]

/-- WHAT STEP `t` WRITES BACK is block `t` of the folded result of the argument arrays. -/
theorem flushed_eq (c : Dev nD) (t : Fin cfg0.N) :
    (dats m 0 c).flushed 9 t = ((cfg0.win 9).blk t).view.read (Elt Ideal) (G m c) := by
  obtain ⟨-, -, -, -, -, -, -, e0, e1⟩ := idx_moving t
  rw [flushed9]
  funext y
  show out0_9 (iblk m c 0 t) (iblk m c 1 t) (iblk m c 2 t) (iblk m c 3 t) (iblk m c 4 t) (iblk m c 5 t) (iblk m c 6 t)
      (iblk m c 7 t) (iblk m c 8 t) y = G m c (((cfg0.win 9).blk t).view.emb y)
  have ey : ((cfg0.win 9).blk t).view.emb y = ix2 (blockRow (32 * t.val) (block_le t) (y 0)) (y 1) :=
    funext fun a => Fin.ext (by
      match a with
      | ⟨0, _⟩ => show win0_9.index t (0 : Fin 2) * 32 + 1 * (y 0).val = 32 * t.val + (y 0).val; rw [e0]; omega
      | ⟨1, _⟩ => show win0_9.index t (1 : Fin 2) * 128 + 1 * (y 1).val = (y 1).val; rw [e1]; omega)
  rw [ey, show y = ix2 (y 0) (y 1) from eq_ix2 y]
  exact block_eq _ _ _ _ _ _ _ (iblk m c 0 t) (iblk m c 1 t) (iblk m c 2 t) (iblk m c 3 t) (iblk m c 4 t) (iblk m c 5 t)
    (iblk m c 6 t) (iblk m c 7 t) (iblk m c 8 t) (32 * t.val) (block_le t)
    (fun p d => target_blk m c t p d) (fun p l d => items_blk m c t p l d) (fun p => lengths_blk m c t p)
    (fun d h => ((weights_blk m c t d h).1).trans (targetWeights_entry m c d h))
    (fun d h => ((weights_blk m c t d h).2.1).trans (itemWeights_entry m c d h))
    (fun d h => ((weights_blk m c t d h).2.2).trans (productWeights_entry m c d h))
    (fun h => ((rows_blk m c t h).1).trans (bias1_entry m c h))
    (fun h => ((rows_blk m c t h).2).trans (weights2_entry m c h))
    ((entry_blk m c t).trans (bias2_entry m c)) (y 0) (y 1)

/-- An index of the result array lies in step `t`'s block iff each coordinate is in the block's range. -/
theorem mem_blk (t : Fin cfg0.N) (i : S2048x128.Idx) :
    i ∈ ((cfg0.win 9).blk t).view.set ↔ ∀ a : Fin 2, win0_9.index t a * S32x128.size a ≤ (i a).val
      ∧ (i a).val < win0_9.index t a * S32x128.size a + S32x128.size a := by
  show i ∈ ((View.whole main_v11).slice (win0_9.rect t)).set ↔ _
  rw [View.set_slice_whole, Rect.mem_set_unit]
  exact Iff.rfl

/-- Every index of the result array is in the block of the step that owns its row: row `r` is in block `r / 32`. -/
theorem cover (i : S2048x128.Idx) : ∃ t : Fin cfg0.N, (cfg0.win 9).flush t = true ∧ i ∈ ((cfg0.win 9).blk t).view.set := by
  have hi0 : (i 0).val < 2048 := (i 0).isLt
  have hi1 : (i 1).val < 128 := (i 1).isLt
  have hN : cfg0.N = 64 := N_0
  let t : Fin cfg0.N := ⟨(i 0).val / 32, by omega⟩
  obtain ⟨-, -, -, -, -, -, -, e0, e1⟩ := idx_moving t
  refine ⟨t, flush0_9 t, ?_⟩
  rw [mem_blk]
  intro a
  match a with
  | ⟨0, _⟩ =>
    show win0_9.index t (0 : Fin 2) * 32 ≤ (i 0).val ∧ (i 0).val < win0_9.index t (0 : Fin 2) * 32 + 32
    rw [e0]
    show (i 0).val / 32 * 32 ≤ (i 0).val ∧ (i 0).val < (i 0).val / 32 * 32 + 32
    omega
  | ⟨1, _⟩ =>
    show win0_9.index t (1 : Fin 2) * 128 ≤ (i 1).val ∧ (i 1).val < win0_9.index t (1 : Fin 2) * 128 + 128
    rw [e1]
    omega

/-- THE RESULT ARRAY after the run is the folded result of the argument arrays. -/
theorem final (c : Dev nD) : (dats m 0 c).arrAt 9 cfg0.N = G m c :=
  (dats m 0 c).arrAt_eq_of_cover 9 (G m c) (fun t _ => flushed_eq m c t) cover

/-- The kernel's run, read: the result at the folded result of the arguments, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RefValue.lean ====
/-
  The reference's value, read coordinate by coordinate, is the specification's concatenated spelling.

  The reference lays four arrays of shape [2048, 200, 128] end to end along the last axis — the target row repeated
  over the 200 positions, the item rows, item minus target, item times target — and contracts the resulting 512
  features against the first layer's weights. Read at `(b, l, f)`, the joined array is the piece whose span holds
  `f`, at `f` less the extents before it, which is `Cert.Scorer.features`. From there each operation is read at an
  index from its operands: the contraction plus the bias is `preConcat`; the maximum with zero, the second contraction
  and its bias give the score of position `l`; the comparison of `l` with the row's length, converted to a float, is
  the mask; and the sum over the positions of score times item entry times mask, started from zero, is `attend`.
-/
import proofs.«100536_j4243427688477_2_alg».proof.Proof.Gen.ReferenceIdeal.Read
import proofs.«100536_j4243427688477_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.SL.Sem Idealize.ShloMosaic.StableHlo

variable (x0 : (⟨S2048x128, .f32⟩ : BufTy).Contents (Elt Ideal)) (x1 : (⟨S2048x200x128, .f32⟩ : BufTy).Contents (Elt Ideal))
  (x2 : (⟨S2048, .i32⟩ : BufTy).Contents (Elt Ideal)) (x3 : (⟨S512x256, .f32⟩ : BufTy).Contents (Elt Ideal))
  (x4 : (⟨S256, .f32⟩ : BufTy).Contents (Elt Ideal)) (x5 : (⟨S256x1, .f32⟩ : BufTy).Contents (Elt Ideal))
  (x6 : (⟨S1, .f32⟩ : BufTy).Contents (Elt Ideal))

/-- The target row broadcast over the positions: at `(b, l, d)` it is the target's entry `(b, d)`. -/
theorem target_at (b : Fin 2048) (l : Fin 200) (d : Fin 128) :
    val_main_v1 (F := Ideal) x0 (ix3 b l d) = x0 (ix2 b d) := by
  rw [val_main_v1_apply, val_main_v0_apply]
  exact congrArg x0 (funext fun a => Fin.ext (by match a with | ⟨0, _⟩ => rfl | ⟨1, _⟩ => rfl))

/-- The four 128-wide pieces laid end to end along the last axis are the specification's features: a coordinate
    `f` below 128 falls in the target piece, below 256 in the item piece, below 384 in the difference, and the rest
    in the product, each read at `f` less the extents before it. -/
theorem features_at (b : Fin 2048) (l : Fin 200) (f : Fin 512) :
    val_main_v4 (F := Ideal) x0 x1 (ix3 b l f) = Cert.Scorer.features x0 x1 b l f := by
  unfold val_main_v4 Cert.Scorer.features
  by_cases h0 : f.val < 128
  · rw [dif_pos h0]
    rw [concatenate_apply_piece (2 : Fin S2048x200x512.rank) _ _ (ix3 b l f) 0 (by show (0 : Nat) < 4; decide) S2048x200x128
      (val_main_v1 (F := Ideal) x0) rfl rfl 0 rfl (ix3 b l ⟨f.val, h0⟩)
      (fun a ha => by match a with | ⟨0, _⟩ => rfl | ⟨1, _⟩ => rfl | ⟨2, _⟩ => exact absurd rfl ha)
      (Nat.zero_add _)]
    exact target_at x0 b l _
  · rw [dif_neg h0]
    by_cases h1 : f.val < 256
    · rw [dif_pos h1]
      exact concatenate_apply_piece (2 : Fin S2048x200x512.rank) _ _ (ix3 b l f) 1 (by show (1 : Nat) < 4; decide) S2048x200x128
        x1 rfl rfl 128 rfl (ix3 b l ⟨f.val - 128, by omega⟩)
        (fun a ha => by match a with | ⟨0, _⟩ => rfl | ⟨1, _⟩ => rfl | ⟨2, _⟩ => exact absurd rfl ha)
        (by show 128 + (f.val - 128) = f.val; omega)
    · rw [dif_neg h1]
      by_cases h2 : f.val < 384
      · rw [dif_pos h2]
        rw [concatenate_apply_piece (2 : Fin S2048x200x512.rank) _ _ (ix3 b l f) 2 (by show (2 : Nat) < 4; decide) S2048x200x128
          (val_main_v2 (F := Ideal) x0 x1) rfl rfl 256 rfl (ix3 b l ⟨f.val - 256, by omega⟩)
          (fun a ha => by match a with | ⟨0, _⟩ => rfl | ⟨1, _⟩ => rfl | ⟨2, _⟩ => exact absurd rfl ha)
          (by show 256 + (f.val - 256) = f.val; omega)]
        rw [val_main_v2_apply, Ideal.subf_def, target_at]
      · rw [dif_neg h2]
        have hf := f.isLt
        rw [concatenate_apply_piece (2 : Fin S2048x200x512.rank) _ _ (ix3 b l f) 3 (by show (3 : Nat) < 4; decide) S2048x200x128
          (val_main_v3 (F := Ideal) x0 x1) rfl rfl 384 rfl (ix3 b l ⟨f.val - 384, by omega⟩)
          (fun a ha => by match a with | ⟨0, _⟩ => rfl | ⟨1, _⟩ => rfl | ⟨2, _⟩ => exact absurd rfl ha)
          (by show 384 + (f.val - 384) = f.val; omega)]
        rw [val_main_v3_apply, Ideal.mulf_def, target_at]

/-- The first layer: the contraction of the features against the weight matrix, plus the bias. -/
theorem pre_at (b : Fin 2048) (l : Fin 200) (h : Fin 256) :
    val_main_v8 (F := Ideal) x0 x1 x3 x4 (ix3 b l h) = Cert.Scorer.preConcat x0 x1 x3 x4 b l h := by
  rw [val_main_v8_apply, Ideal.addf_def, val_main_v5_apply, val_main_v7_apply, val_main_v6_apply]
  unfold Cert.Scorer.preConcat
  congr 1
  · refine Finset.sum_congr rfl fun f _ => ?_
    have el : lidx_main_v5 (ix3 b l h) f = ix3 b l f :=
      funext fun a => Fin.ext (by match a with | ⟨0, _⟩ => rfl | ⟨1, _⟩ => rfl | ⟨2, _⟩ => rfl)
    have er : ridx_main_v5 (ix3 b l h) f = ix2 f h :=
      funext fun a => Fin.ext (by match a with | ⟨0, _⟩ => rfl | ⟨1, _⟩ => rfl)
    rw [el, er, features_at]
  · exact congrArg x4 (funext fun a => Fin.ext (by match a with | ⟨0, _⟩ => rfl))

/-- The score of position `l`: the rectified pre-activation against the second layer's column, plus its bias. -/
theorem score_at (b : Fin 2048) (l : Fin 200) :
    val_main_v13 (F := Ideal) x0 x1 x3 x4 x5 x6 (ix3 b l (0 : Fin 1))
      = (∑ h : Fin 256, max (Cert.Scorer.preConcat x0 x1 x3 x4 b l h) (Ideal.ofBits .f32 0x00000000#32) * x5 (ix2 h (0 : Fin 1)))
        + x6 (ix1 (0 : Fin 1)) := by
  rw [val_main_v13_apply, Ideal.addf_def, val_main_v10_apply, val_main_v12_apply, val_main_v11_apply]
  congr 1
  · refine Finset.sum_congr rfl fun h _ => ?_
    have el : lidx_main_v10 (ix3 b l (0 : Fin 1)) h = ix3 b l h :=
      funext fun a => Fin.ext (by match a with | ⟨0, _⟩ => rfl | ⟨1, _⟩ => rfl | ⟨2, _⟩ => rfl)
    have er : ridx_main_v10 (ix3 b l (0 : Fin 1)) h = ix2 h (0 : Fin 1) :=
      funext fun a => Fin.ext (by match a with | ⟨0, _⟩ => rfl | ⟨1, _⟩ => rfl)
    rw [el, er, val_main_v9_apply, Ideal.maximumf_def, pre_at, val_main_call0_v0_apply, val_main_call0_cst_apply,
      Ideal.ofBits_def]
  · exact congrArg x6 (funext fun a => Fin.ext (by match a with | ⟨0, _⟩ => rfl))

/-- The mask of position `l` in row `b`, as a float: one when `l` is below the row's length, else zero. -/
theorem mask_at (b : Fin 2048) (l : Fin 200) :
    val_main_v20 (F := Ideal) x2 (ix2 b l) = (((Cert.Scorer.maskBit x2 b l).toNat : ℝ) : EReal) := by
  rw [val_main_v20_apply, val_main_v19_apply, val_main_v17_apply, val_main_v15_apply, val_main_v14_apply,
    val_main_v18_apply, val_main_v16_apply]
  unfold Cert.Scorer.maskBit
  have e : idx_main_v16 (idx_main_v18 (ix2 b l)) = ix1 b :=
    funext fun a => Fin.ext (by match a with | ⟨0, _⟩ => rfl)
  rw [e]
  rfl

/-- The reference's result is the specification's concatenated spelling. -/
theorem reference_eq :
    val_main_v26 (F := Ideal) x0 x1 x2 x3 x4 x5 x6 = Cert.Scorer.resultConcat x0 x1 x2 x3 x4 x5 x6 := by
  funext i
  obtain ⟨b, d, rfl⟩ : ∃ (b : Fin 2048) (d : Fin 128), i = ix2 b d := ⟨i 0, i 1, eq_ix2 i⟩
  rw [val_main_v26_apply, val_main_cst_apply, Ideal.ofBits_def, Ideal.ofBits_zero_f32, zero_add]
  show _ = Cert.Scorer.attend x1 x2 x5 x6 (Cert.Scorer.preConcat x0 x1 x3 x4) b d
  unfold Cert.Scorer.attend
  refine Finset.sum_congr rfl fun l _ => ?_
  have e26 : idx_main_v26 (ix2 b d) l = ix3 b l d :=
    funext fun a => Fin.ext (by match a with | ⟨0, _⟩ => rfl | ⟨1, _⟩ => rfl | ⟨2, _⟩ => rfl)
  have e21 : idx_main_v21 (ix3 b l d) = ix3 b l (0 : Fin 1) :=
    funext fun a => Fin.ext (by match a with | ⟨0, _⟩ => rfl | ⟨1, _⟩ => rfl | ⟨2, _⟩ => rfl)
  have e23 : idx_main_v23 (idx_main_v24 (ix3 b l d)) = ix2 b l :=
    funext fun a => Fin.ext (by match a with | ⟨0, _⟩ => rfl | ⟨1, _⟩ => rfl)
  rw [e26, val_main_v25_apply, Ideal.mulf_def, val_main_v22_apply, Ideal.mulf_def, val_main_v21_apply, e21, score_at,
    val_main_v24_apply, val_main_v23_apply, e23, mask_at]

end Cert.ReferenceIdeal.RefValue

end
-- ==== Proof.Law.lean ====
/-
  The two spellings of the pre-activation agree on real data.

  A contraction over the 512 features is the sum of its four bands of 128 (`sum_four_bands`). On the bands the feature
  is the target entry `t`, the item entry `x`, `x - t` and `x * t`; collecting the terms in `x`, in `x * t` and in `t`
  gives the folded spelling: `t·w₀ + x·w₁ + (x − t)·w₂ + (x·t)·w₃ = x·(w₁ + w₂) + (x·t)·w₃ + t·(w₀ − w₂)`. That is
  distributivity, which fails on the extended reals at the infinities, so it is proved for real entries (`band_law`)
  and used where the target, the items and the weights are real.
-/
import proofs.«100536_j4243427688477_2_alg».proof.Proof.Spec
import Mathlib.Algebra.BigOperators.Fin
import Mathlib.Tactic.Ring

noncomputable section

namespace Cert.Scorer

open Idealize.ShloMosaic Idealize.ShloMosaic.ValueIdx

/-- A finite sum of reals read in the extended reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 512 terms is the sum of its four consecutive bands of 128. -/
theorem sum_four_bands {M : Type*} [AddCommMonoid M] (g : Fin 512 → M) :
    ∑ f : Fin 512, g f
      = ((∑ d : Fin 128, g (wrow 0 (by norm_num) d) + ∑ d : Fin 128, g (wrow 128 (by norm_num) d))
          + ∑ d : Fin 128, g (wrow 256 (by norm_num) d)) + ∑ d : Fin 128, g (wrow 384 (by norm_num) d) := by
  have key : ∀ g' : Fin (128 + (128 + (128 + 128))) → M, ∑ f, g' f
      = ∑ d : Fin 128, g' (Fin.castAdd _ d) + (∑ d : Fin 128, g' (Fin.natAdd 128 (Fin.castAdd _ d))
          + (∑ d : Fin 128, g' (Fin.natAdd 128 (Fin.natAdd 128 (Fin.castAdd _ d)))
            + ∑ d : Fin 128, g' (Fin.natAdd 128 (Fin.natAdd 128 (Fin.natAdd 128 d))))) := by
    intro g'
    rw [Fin.sum_univ_add, Fin.sum_univ_add, Fin.sum_univ_add]
  have e0 : ∀ d : Fin 128, (Fin.castAdd (128 + (128 + 128)) d : Fin 512) = wrow 0 (by norm_num) d :=
    fun d => Fin.ext (by simp [wrow])
  have e1 : ∀ d : Fin 128, (Fin.natAdd 128 (Fin.castAdd (128 + 128) d) : Fin 512) = wrow 128 (by norm_num) d :=
    fun d => Fin.ext (by simp [wrow])
  have e2 : ∀ d : Fin 128, (Fin.natAdd 128 (Fin.natAdd 128 (Fin.castAdd 128 d)) : Fin 512) = wrow 256 (by norm_num) d :=
    fun d => Fin.ext (by simp [wrow]; omega)
  have e3 : ∀ d : Fin 128, (Fin.natAdd 128 (Fin.natAdd 128 (Fin.natAdd 128 d)) : Fin 512) = wrow 384 (by norm_num) d :=
    fun d => Fin.ext (by simp [wrow]; omega)
  rw [show (∑ f : Fin 512, g f) = _ from key g]
  simp only [e0, e1, e2, e3, add_assoc]

/-- The regrouping of the four bands, for real entries. -/
theorem band_law (t x w0 w1 w2 w3 : Fin 128 → ℝ) :
    (((∑ d, (t d : EReal) * (w0 d : EReal)) + ∑ d, (x d : EReal) * (w1 d : EReal))
        + ∑ d, ((x d : EReal) - (t d : EReal)) * (w2 d : EReal)) + ∑ d, ((x d : EReal) * (t d : EReal)) * (w3 d : EReal)
      = ((∑ d, (x d : EReal) * ((w1 d : EReal) + (w2 d : EReal))) + ∑ d, ((x d : EReal) * (t d : EReal)) * (w3 d : EReal))
        + ∑ d, (t d : EReal) * ((w0 d : EReal) - (w2 d : EReal)) := by
  simp only [← EReal.coe_mul, ← EReal.coe_add, ← EReal.coe_sub, ← coe_sum]
  refine congrArg _ ?_
  simp only [← Finset.sum_add_distrib]
  exact Finset.sum_congr rfl fun d _ => by ring

section

variable (tg : (⟨2, ![2048, 128]⟩ : Shape).Idx → EReal) (it : (⟨3, ![2048, 200, 128]⟩ : Shape).Idx → EReal)
  (sl : (⟨1, ![2048]⟩ : Shape).Idx → BitVec 32) (W1 : (⟨2, ![512, 256]⟩ : Shape).Idx → EReal)
  (b1 : (⟨1, ![256]⟩ : Shape).Idx → EReal) (W2 : (⟨2, ![256, 1]⟩ : Shape).Idx → EReal)
  (b2 : (⟨1, ![1]⟩ : Shape).Idx → EReal)

/-- The first band of features is the target row. -/
theorem features_band0 (b : Fin 2048) (l : Fin 200) (d : Fin 128) :
    features tg it b l (wrow 0 (by norm_num) d) = tg (ix2 b d) := by
  have hd := d.isLt
  unfold features
  rw [dif_pos (show (wrow 0 (by norm_num) d).val < 128 by dsimp only [wrow]; omega)]
  exact congrArg (fun k => tg (ix2 b k)) (Fin.ext (by dsimp only [wrow]; omega))

/-- The second band is the item row. -/
theorem features_band1 (b : Fin 2048) (l : Fin 200) (d : Fin 128) :
    features tg it b l (wrow 128 (by norm_num) d) = it (ix3 b l d) := by
  have hd := d.isLt
  unfold features
  rw [dif_neg (show ¬(wrow 128 (by norm_num) d).val < 128 by dsimp only [wrow]; omega),
    dif_pos (show (wrow 128 (by norm_num) d).val < 256 by dsimp only [wrow]; omega)]
  exact congrArg (fun k => it (ix3 b l k)) (Fin.ext (by dsimp only [wrow]; omega))

/-- The third band is item minus target. -/
theorem features_band2 (b : Fin 2048) (l : Fin 200) (d : Fin 128) :
    features tg it b l (wrow 256 (by norm_num) d) = it (ix3 b l d) - tg (ix2 b d) := by
  have hd := d.isLt
  unfold features
  rw [dif_neg (show ¬(wrow 256 (by norm_num) d).val < 128 by dsimp only [wrow]; omega),
    dif_neg (show ¬(wrow 256 (by norm_num) d).val < 256 by dsimp only [wrow]; omega),
    dif_pos (show (wrow 256 (by norm_num) d).val < 384 by dsimp only [wrow]; omega)]
  have e : (⟨(wrow 256 (by norm_num) d).val - 256, by dsimp only [wrow]; omega⟩ : Fin 128) = d := Fin.ext (by dsimp only [wrow]; omega)
  exact congrArg₂ (· - ·) (congrArg (fun k => it (ix3 b l k)) e) (congrArg (fun k => tg (ix2 b k)) e)

/-- The fourth band is item times target. -/
theorem features_band3 (b : Fin 2048) (l : Fin 200) (d : Fin 128) :
    features tg it b l (wrow 384 (by norm_num) d) = it (ix3 b l d) * tg (ix2 b d) := by
  have hd := d.isLt
  unfold features
  rw [dif_neg (show ¬(wrow 384 (by norm_num) d).val < 128 by dsimp only [wrow]; omega),
    dif_neg (show ¬(wrow 384 (by norm_num) d).val < 256 by dsimp only [wrow]; omega),
    dif_neg (show ¬(wrow 384 (by norm_num) d).val < 384 by dsimp only [wrow]; omega)]
  have e : (⟨(wrow 384 (by norm_num) d).val - 384, by dsimp only [wrow]; omega⟩ : Fin 128) = d := Fin.ext (by dsimp only [wrow]; omega)
  exact congrArg₂ (· * ·) (congrArg (fun k => it (ix3 b l k)) e) (congrArg (fun k => tg (ix2 b k)) e)

/-- On real targets, items and first-layer weights the concatenated pre-activation is the folded one. -/
theorem preConcat_eq_preFolded (htg : ∀ i, ∃ r : ℝ, tg i = (r : EReal)) (hit : ∀ i, ∃ r : ℝ, it i = (r : EReal))
    (hW : ∀ i, ∃ r : ℝ, W1 i = (r : EReal)) (b : Fin 2048) (l : Fin 200) (h : Fin 256) :
    preConcat tg it W1 b1 b l h = preFolded tg it W1 b1 b l h := by
  choose T hT using htg
  choose X hX using hit
  choose W hW' using hW
  unfold preConcat preFolded
  refine congrArg (· + b1 (ix1 h)) ?_
  rw [sum_four_bands]
  simp only [features_band0, features_band1, features_band2, features_band3, hT, hX, hW']
  exact band_law (fun d => T (ix2 b d)) (fun d => X (ix3 b l d)) (fun d => W (ix2 (wrow 0 (by norm_num) d) h))
    (fun d => W (ix2 (wrow 128 (by norm_num) d) h)) (fun d => W (ix2 (wrow 256 (by norm_num) d) h))
    (fun d => W (ix2 (wrow 384 (by norm_num) d) h))

/-- So the two spellings of the result are one array. -/
theorem resultConcat_eq_resultFolded (htg : ∀ i, ∃ r : ℝ, tg i = (r : EReal)) (hit : ∀ i, ∃ r : ℝ, it i = (r : EReal))
    (hW : ∀ i, ∃ r : ℝ, W1 i = (r : EReal)) :
    resultConcat tg it sl W1 b1 W2 b2 = resultFolded tg it sl W1 b1 W2 b2 := by
  have e : preConcat tg it W1 b1 = preFolded tg it W1 b1 :=
    funext fun b => funext fun l => funext fun h => preConcat_eq_preFolded tg it W1 b1 htg hit hW b l h
  unfold resultConcat resultFolded
  rw [e]

end

end Cert.Scorer

end
-- ==== Proof.Finite.lean ====
/-
  From the precondition to real entries.

  The precondition of the claim says, for each float input `x`, that `|x| < +∞` holds at every entry: the
  comparison of `max x (-x)` with the extended real the word `0x7F800000` denotes (which is `⊤`), reduced by
  `and` over all axes from 1, and the six results joined by `and`. Over the extended reals `max x (-x)` is
  `⊤` exactly when `x` is `⊥` or `⊤`, so an entry that passes the comparison is the image of a real number.
  Distributivity of multiplication over addition, the law the two sides of the claim are joined by, needs
  exactly that of the three inputs it touches.
-/
import proofs.«100536_j4243427688477_2_alg».proof.Pre_finite_inputs
import Idealize.ShloMosaic.Lib.ReduceAll
import Idealize.ShloMosaic.Lib.ValueIdx
import Idealize.ShloMosaic.PureOps.Ideal

noncomputable section

namespace Cert.Scorer.Finite

open Idealize.ShloMosaic Idealize.ShloMosaic.ValueIdx

/-- An extended real whose absolute value `max x (-x)` lies strictly below `⊤` is a real number:
    at `⊥` and at `⊤` that maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` of one entry, as the precondition prints it, came out 1 only at a real. -/
theorem real_of_cmp (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  apply real_of_abs_lt_top
  have htop : Ideal.ofBits .f32 0x7F800000#32 = (⊤ : EReal) := by simp [Ideal.ofBits, Ideal.ieee]
  rw [htop] at h
  by_contra hlt
  have : FloatOps.cmpf (F := Ideal) (φ := .f32) .olt (FloatOps.hostAbsf (F := Ideal) (φ := .f32) x) (⊤ : EReal)
      = 0#1 := by
    show BitVec.ofBool (decide (max x (-x) < (⊤ : EReal))) = 0#1
    simp [hlt]
  rw [this] at h
  exact absurd h (by decide)

/-- If the reduction by `and`, over all axes, of `|x| < +∞` is 1, every entry of `x` is a real number:
    for an array of any shape, the bound being the splat of the word of `+∞`. -/
theorem real_of_all {s t u c : Shape} [Subsingleton t.Idx] {axes : List (Fin s.rank)}
    (x : FVec Ideal s .f32) (dims : Fin c.rank → Fin s.rank) (hb : c.BroadcastsInDim s dims)
    (init : IVec u 1) (h : s.ReducesTo axes t) (hu : 0 < u.numel) (j : t.Idx)
    (e : Host.reduce IntOp.andi
        (cmpf .olt (Host.absf x) (broadcastInDim s dims hb (constant (F := Ideal) c .f32 0x7F800000#32))) init h hu j
      = 1#1) :
    ∀ i, ∃ r : ℝ, x i = (r : EReal) := fun i =>
  real_of_cmp (x i) (Host.reduce_andi_all _ init h hu j e i)

instance : Subsingleton Cert.Pre_finite_inputs.S_.Idx := ⟨fun a b => funext fun d => d.elim0⟩

open Cert.Pre_finite_inputs in
/-- The precondition gives real entries for the target rows, the item rows and the first layer's weights. -/
theorem real_of_pre [Cert.Pre_finite_inputs.Facts]
    (a0 : FVec Ideal S2048x128 .f32) (a1 : FVec Ideal S2048x200x128 .f32) (a2 : IVec S2048 32)
    (a3 : FVec Ideal S512x256 .f32) (a4 : FVec Ideal S256 .f32) (a5 : FVec Ideal S256x1 .f32)
    (a6 : FVec Ideal S1 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h5, -⟩ := IntOp.andi_eq_one.1 h0
  obtain ⟨h4, -⟩ := IntOp.andi_eq_one.1 h5
  obtain ⟨h3, -⟩ := IntOp.andi_eq_one.1 h4
  obtain ⟨h2, e3⟩ := IntOp.andi_eq_one.1 h3
  obtain ⟨e0, e1⟩ := IntOp.andi_eq_one.1 h2
  exact ⟨real_of_all a0 _ _ _ _ _ _ e0, real_of_all a1 _ _ _ _ _ _ e1, real_of_all a3 _ _ _ _ _ _ e3⟩

end Cert.Scorer.Finite

end
-- ==== Proof.lean ====
/-
  An attention scorer over item sequences: for each of 2048 batch rows, 200 item rows of 128 entries are scored against the
  row's target by a two-layer perceptron on the features (target, item, item − target, item · target), and the result
  is the sum of the item rows weighted by their scores over the positions below the row's length.

  The reference lays the 512 features end to end and contracts them with the 512 × 256 first-layer weights. The kernel never
  builds the features: it combines the four 128-row bands of the weights beforehand — the item rows meet the sum of
  the item and difference bands, the entrywise products meet the product band, the target rows meet the target band minus
  the difference band — and takes 32 batch rows per grid step. Past the first layer (bias, rectifier, the second
  layer as a weighted sum along the hidden axis, its bias, the mask of positions below the row's length, the sum over
  positions) the two programs compute the same expression, and a change of float format is the identity on the
  extended reals.

  So the claim rests on one law: t·w₀ + x·w₁ + (x − t)·w₂ + (x·t)·w₃ = x·(w₁ + w₂) + (x·t)·w₃ + t·(w₀ − w₂), summed over
  128 entries. It is distributivity, which the extended reals lack at the infinities; the precondition makes the
  target, the items and the first-layer weights real, and on reals it is an identity of finite sums.

  The kernel's result array is the specification's folded spelling of the argument arrays (the grid's 64 blocks cover the
  2048 rows, each block the body's arithmetic on its rows); the reference's result is the concatenated spelling; the law
  joins them. The three frames are the generated ones, and the idealization rewrote nothing, so it is preserved trivially.
-/
import proofs.«100536_j4243427688477_2_alg».proof.Defs
import proofs.«100536_j4243427688477_2_alg».proof.Proof.Gen.Kernel
import proofs.«100536_j4243427688477_2_alg».proof.Proof.Gen.Kernel.Skeleton
import proofs.«100536_j4243427688477_2_alg».proof.Proof.Gen.Kernel.Launch
import proofs.«100536_j4243427688477_2_alg».proof.Proof.Gen.Kernel.Points
import proofs.«100536_j4243427688477_2_alg».proof.Proof.Gen.Kernel.Frame
import proofs.«100536_j4243427688477_2_alg».proof.Proof.Gen.KernelIdeal
import proofs.«100536_j4243427688477_2_alg».proof.Proof.Gen.KernelIdeal.Skeleton
import proofs.«100536_j4243427688477_2_alg».proof.Proof.Gen.KernelIdeal.Launch
import proofs.«100536_j4243427688477_2_alg».proof.Proof.Gen.KernelIdeal.Points
import proofs.«100536_j4243427688477_2_alg».proof.Proof.Gen.KernelIdeal.Frame
import proofs.«100536_j4243427688477_2_alg».proof.Proof.Gen.ReferenceIdeal
import proofs.«100536_j4243427688477_2_alg».proof.Proof.Gen.Pre_finite_inputs
import proofs.«100536_j4243427688477_2_alg».proof.Proof.Gen.KernelIdeal.Value
import proofs.«100536_j4243427688477_2_alg».proof.Proof.Gen.ReferenceIdeal.Run
import proofs.«100536_j4243427688477_2_alg».proof.Proof.Gen.ReferenceIdeal.Read
import proofs.«100536_j4243427688477_2_alg».proof.Proof.Blocks
import proofs.«100536_j4243427688477_2_alg».proof.Proof.RefValue
import proofs.«100536_j4243427688477_2_alg».proof.Proof.Law
import proofs.«100536_j4243427688477_2_alg».proof.Proof.Finite
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel ends at the folded spelling of its arguments and the reference at
    the concatenated spelling of the same arrays; the precondition makes the target, the items and the first-layer
    weights real, where the two spellings are one array. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r3⟩ := Cert.Scorer.Finite.real_of_pre _ _ _ _ _ _ _ (hpre c)
  obtain ⟨a0, a1, a2, a3, a4, a5, a6⟩ := hagree c
  rw [Cert.ReferenceIdeal.Read.val_main_v26_eq, Cert.ReferenceIdeal.RefValue.reference_eq, a0, a1, a2, a3, a4, a5, a6]
  exact Cert.Scorer.resultConcat_eq_resultFolded _ _ _ _ _ _ _ r0 r1 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
